-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1 .f32) (main_arg7 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg6
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg7 main_v33

def fn {F : FTy → Type} [FloatOps F] (main_arg0 : FVec F S32x2048x1024 .f32) (main_arg1 : FVec F S32x1024 .f32) (main_arg2 : FVec F S1024x1024 .f32) (main_arg3 : FVec F S1024 .f32) (main_arg4 : FVec F S1024x1024 .f32) (main_arg5 : FVec F S1024 .f32) (main_arg6 : FVec F S1024x1 .f32) (main_arg7 : FVec F S1 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S32x2048x1024 : Shape := ⟨3, ![32, 2048, 1024]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1024 : Shape := ⟨2, ![1, 1024]⟩
abbrev S32x2048 : Shape := ⟨2, ![32, 2048]⟩
abbrev S32x1 : Shape := ⟨2, ![32, 1]⟩
abbrev S8x128x1024 : Shape := ⟨3, ![8, 128, 1024]⟩
abbrev S8x1024 : Shape := ⟨2, ![8, 1024]⟩
abbrev S8x128 : Shape := ⟨2, ![8, 128]⟩
abbrev S8x1 : Shape := ⟨2, ![8, 1]⟩
abbrev S8x1x1024 : Shape := ⟨3, ![8, 1, 1024]⟩
abbrev S1x1x1024 : Shape := ⟨3, ![1, 1, 1024]⟩
abbrev S8 : Shape := ⟨1, ![8]⟩
abbrev S8x1x128 : Shape := ⟨3, ![8, 1, 128]⟩
abbrev S32x2048x1 : Shape := ⟨3, ![32, 2048, 1]⟩

abbrev nBuf : Space → Nat
  | .hbm => 21
  | .vmem => 17
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S32x1024, .f32⟩
  | .hbm, ⟨9, _⟩ => ⟨S1x1024, .f32⟩
  | .hbm, ⟨10, _⟩ => ⟨S32x1024, .f32⟩
  | .hbm, ⟨11, _⟩ => ⟨S32x1024, .f32⟩
  | .hbm, ⟨12, _⟩ => ⟨S1024x1024, .bf16⟩
  | .hbm, ⟨13, _⟩ => ⟨S1x1024, .f32⟩
  | .hbm, ⟨14, _⟩ => ⟨S32x1024, .f32⟩
  | .hbm, ⟨15, _⟩ => ⟨S32x2048, .f32⟩
  | .hbm, ⟨16, _⟩ => ⟨S32x1, .f32⟩
  | .hbm, ⟨17, _⟩ => ⟨S32x2048, .f32⟩
  | .hbm, ⟨18, _⟩ => ⟨S32x2048, .f32⟩
  | .hbm, ⟨19, _⟩ => ⟨S32x2048, .f32⟩
  | .hbm, ⟨20, _⟩ => ⟨S32x2048x1, .f32⟩
  | .local _ .vmem, ⟨0, _⟩ => ⟨S8x128x1024, .f32⟩
  | .local _ .vmem, ⟨1, _⟩ => ⟨S8x128x1024, .f32⟩
  | .local _ .vmem, ⟨2, _⟩ => ⟨S1024x1024, .bf16⟩
  | .local _ .vmem, ⟨3, _⟩ => ⟨S1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1, .f32⟩
  | .local _ .vmem, ⟨8, _⟩ => ⟨S8x1024, .f32⟩
  | .local _ .vmem, ⟨9, _⟩ => ⟨S8x1024, .f32⟩
  | .local _ .vmem, ⟨10, _⟩ => ⟨S8x128, .f32⟩
  | .local _ .vmem, ⟨11, _⟩ => ⟨S8x128, .f32⟩
  | .local _ .vmem, ⟨12, _⟩ => ⟨S8x1, .f32⟩
  | .local _ .vmem, ⟨13, _⟩ => ⟨S8x1, .f32⟩
  | .local _ .vmem, ⟨14, _⟩ => ⟨S8x1, .f32⟩
  | .local _ .vmem, ⟨15, _⟩ => ⟨S8x1, .f32⟩
  | .local _ .vmem, ⟨16, _⟩ => ⟨S8x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v63 : BitVec 1 := Scalar.cmpi .eq arg1 c15_i32
  let v64 : BitVec 32 := Scalar.extui v63
  let c0_i32_29 : BitVec 32 := 0#32
  let v65 : BitVec 1 := Scalar.cmpi .ne v64 c0_i32_29
  v65

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bitsLt_bf16_f32 : FTy.bits .bf16 < FTy.bits .f32
  transposes_S1024x1_S1x1024_1_0 : S1024x1.Transposes [1, 0] S1x1024
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S1024x1024 : S8x128x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x1024_S8x128x1024 : S1024x1024.ShapeCasts S8x128x1024
  shapeCasts_S8x1024_S8x1x1024 : S8x1024.ShapeCasts S8x1x1024
  broadcasts_S8x1x1024_S8x128x1024 : S8x1x1024.Broadcasts S8x128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  inb_S1_S1_0 : ∀ a, (![0] : Fin 1 → Nat) a + S1.size a ≤ S1.size a
  h_S1 : 0 < S1.numel
  inpos_S1_p0 : ∀ a, (![0] : Fin 1 → Nat) a < S1.size a
  broadcasts_S1x1x1024_S8x128x1024 : S1x1x1024.Broadcasts S8x128x1024
  reduces_S8x128x1024_S8x128 : S8x128x1024.Reduces [2] S8x128
  reduces_S8x128_S8 : S8x128.Reduces [1] S8
  shapeCasts_S8_S8x1 : S8.ShapeCasts S8x1
  broadcasts_S8x1_S8x128 : S8x1.Broadcasts S8x128
  shapeCasts_S8x128_S8x1x128 : S8x128.ShapeCasts S8x1x128
  shapeCasts_S8x1x1024_S8x1024 : S8x1x1024.ShapeCasts S8x1024
  broadcasts_S8x1_S8x1024 : S8x1.Broadcasts S8x1024
  inb_S8x128_S8x128_0_0 : ∀ a, (![0, 0] : Fin 2 → Nat) a + S8x128.size a ≤ S8x128.size a
  h_S8x128 : 0 < S8x128.numel
  bcast_S32x1_S32x2048_0_1 : S32x1.BroadcastsInDim S32x2048 (![0, 1] : Fin 2 → Fin S32x2048.rank)
  bcast_S32x2048_S32x2048x1_0_1 : S32x2048.BroadcastsInDim S32x2048x1 (![0, 1] : Fin 2 → Fin S32x2048x1.rank)
  dot_S32x1024_S1024x1024_S32x1024_1_0_0_1_n_n_wf : DotDims.WF S32x1024 S1024x1024 S32x1024 [1] [0] [0] [1] [] []
  dot_S1024x1024_S1024x1024_S1024x1024_1_0_0_1_n_n_wf : DotDims.WF S1024x1024 S1024x1024 S1024x1024 [1] [0] [0] [1] [] []
  dot_S8x1x128_S8x128x1024_S8x1x1024_2_1_1_2_0_0_wf : DotDims.WF S8x1x128 S8x128x1024 S8x1x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S32x2048x1024.size a
  hwx0_0 : ∀ i : grid0.Coords, EltTy.bits .f32 = 32 ∨ (Rect.block (s := S32x2048x1024) S8x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x1024.size a
  hwx0_3 : ∀ i : grid0.Coords, EltTy.bits .f32 = 32 ∨ (Rect.block (s := S32x1024) S8x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1024.size a ≤ S32x1024.size a
  hwx0_6 : ∀ i : grid0.Coords, EltTy.bits .f32 = 32 ∨ (Rect.block (s := S32x1024) S8x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S32x2048.size a
  hwx0_7 : ∀ i : grid0.Coords, EltTy.bits .f32 = 32 ∨ (Rect.block (s := S32x2048) S8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x1.size a ≤ S32x1.size a
  hwx0_8 : ∀ i : grid0.Coords, EltTy.bits .f32 = 32 ∨ (Rect.block (s := S32x1) S8x1.size (cc0_transform_8 i) (hinb0_8 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S8x1x128_S8x128x1024_S8x1x1024_2_1_1_2_0_0 : DotDims S8x1x128 S8x128x1024 S8x1x1024 where
  lhsContracting := [2]
  rhsContracting := [1]
  lhsNonContracting := [1]
  rhsNonContracting := [2]
  lhsBatch := [0]
  rhsBatch := [0]
  wf := dot_S8x1x128_S8x128x1024_S8x1x1024_2_1_1_2_0_0_wf

abbrev win0_0 : Pipeline.Window sig grid0 :=
  Pipeline.Window.ofSpec (Memref.whole main_arg0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S8x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_2) S8x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond2 i == 1#1) | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S32x2048x1024 : Shape := ⟨3, ![32, 2048, 1024]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1x1024 : Shape := ⟨3, ![1, 1, 1024]⟩
abbrev S1x1024 : Shape := ⟨2, ![1, 1024]⟩
abbrev S32x1x1024 : Shape := ⟨3, ![32, 1, 1024]⟩
abbrev S32x2048x1 : Shape := ⟨3, ![32, 2048, 1]⟩
abbrev S1x1x1 : Shape := ⟨3, ![1, 1, 1]⟩
abbrev S_ : Shape := ⟨0, ![]⟩
abbrev S32x1 : Shape := ⟨2, ![32, 1]⟩
abbrev S32x1x1 : Shape := ⟨3, ![32, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S32x2048x1024, .f32⟩
  | .hbm, ⟨9, _⟩ => ⟨S1x1x1024, .f32⟩
  | .hbm, ⟨10, _⟩ => ⟨S32x2048x1024, .f32⟩
  | .hbm, ⟨11, _⟩ => ⟨S32x2048x1024, .f32⟩
  | .hbm, ⟨12, _⟩ => ⟨S32x1024, .f32⟩
  | .hbm, ⟨13, _⟩ => ⟨S1x1024, .f32⟩
  | .hbm, ⟨14, _⟩ => ⟨S32x1024, .f32⟩
  | .hbm, ⟨15, _⟩ => ⟨S32x1024, .f32⟩
  | .hbm, ⟨16, _⟩ => ⟨S32x1x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x1, .f32⟩
  | .hbm, ⟨21, _⟩ => ⟨S1x1x1, .f32⟩
  | .hbm, ⟨22, _⟩ => ⟨S32x2048x1, .f32⟩
  | .hbm, ⟨23, _⟩ => ⟨S32x2048x1, .f32⟩
  | .hbm, ⟨24, _⟩ => ⟨S_, .f32⟩
  | .hbm, ⟨25, _⟩ => ⟨S32x1, .f32⟩
  | .hbm, ⟨26, _⟩ => ⟨S_, .f32⟩
  | .hbm, ⟨27, _⟩ => ⟨S32x1, .f32⟩
  | .hbm, ⟨28, _⟩ => ⟨S32x1, .f32⟩
  | .hbm, ⟨29, _⟩ => ⟨S32x1x1, .f32⟩
  | .hbm, ⟨30, _⟩ => ⟨S32x2048x1, .f32⟩
  | .hbm, ⟨31, _⟩ => ⟨S32x2048x1, .f32⟩
  | .hbm, ⟨32, _⟩ => ⟨S32x2048x1, .f32⟩
  | .hbm, ⟨33, _⟩ => ⟨S_, .f32⟩
  | .hbm, ⟨34, _⟩ => ⟨S32x1, .f32⟩
  | .hbm, ⟨35, _⟩ => ⟨S32x1x1, .f32⟩
  | .hbm, ⟨36, _⟩ => ⟨S32x2048x1, .f32⟩
  | .hbm, ⟨37, _⟩ => ⟨S32x2048x1, .f32⟩
  | .hbm, ⟨38, _⟩ => ⟨S32x2048x1024, .f32⟩
  | .hbm, ⟨39, _⟩ => ⟨S32x2048x1024, .f32⟩
  | .hbm, ⟨40, _⟩ => ⟨S_, .f32⟩
  | .hbm, ⟨41, _⟩ => ⟨S32x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S32x1024_S32x1x1024_0_2 : S32x1024.BroadcastsInDim S32x1x1024 (![0, 2] : Fin 2 → Fin S32x1x1024.rank)
  bcast_S32x1x1024_S32x2048x1024_0_1_2 : S32x1x1024.BroadcastsInDim S32x2048x1024 (![0, 1, 2] : Fin 3 → Fin S32x2048x1024.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  bcast_S32x2048x1_S32x2048x1024_0_1_2 : S32x2048x1.BroadcastsInDim S32x2048x1024 (![0, 1, 2] : Fin 3 → Fin S32x2048x1024.rank)
  reducesTo_S32x2048x1024_S32x1024_d1 : S32x2048x1024.ReducesTo [1] S32x1024
  dot_S32x2048x1024_S1024x1024_S32x2048x1024_2_0_01_1_n_n_wf : DotDims.WF S32x2048x1024 S1024x1024 S32x2048x1024 [2] [0] [0, 1] [1] [] []
  dot_S32x1024_S1024x1024_S32x1024_1_0_0_1_n_n_wf : DotDims.WF S32x1024 S1024x1024 S32x1024 [1] [0] [0] [1] [] []
  dot_S32x2048x1024_S1024x1_S32x2048x1_2_0_01_1_n_n_wf : DotDims.WF S32x2048x1024 S1024x1 S32x2048x1 [2] [0] [0, 1] [1] [] []

variable [Facts₀]

def dot_S32x2048x1024_S1024x1024_S32x2048x1024_2_0_01_1_n_n : DotDims S32x2048x1024 S1024x1024 S32x2048x1024 where
  lhsContracting := [2]
  rhsContracting := [0]
  lhsNonContracting := [0, 1]
  rhsNonContracting := [1]
  lhsBatch := []
  rhsBatch := []
  wf := dot_S32x2048x1024_S1024x1024_S32x2048x1024_2_0_01_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x2048x1024_S1024x1_S32x2048x1_2_0_01_1_n_n : DotDims S32x2048x1024 S1024x1 S32x2048x1 where
  lhsContracting := [2]
  rhsContracting := [0]
  lhsNonContracting := [0, 1]
  rhsNonContracting := [1]
  lhsBatch := []
  rhsBatch := []
  wf := dot_S32x2048x1024_S1024x1_S32x2048x1_2_0_01_1_n_n_wf

class Facts : Prop extends Facts₀ where

variable [Facts]
-- ==== Proof.Pieces.lean ====
/-
  What one grid point's body leaves behind, as values.

  The body keeps three running quantities per batch row of the block, relative to a running shift `m`: the shift itself
  (the largest score met so far), the denominator `l = Σ exp (score - m)` and the numerator
  `acc = Σ exp (score - m) · encP` over the time blocks met so far. One time block steps them:

      m'   = max m (max of the block's scores)
      l'   = exp (m - m') · l   + Σ_{t in block} exp (score t - m')
      acc' = exp (m - m') · acc + Σ_{t in block} exp (score t - m') · encP t

  (`newMax`, `newSum`, `newAcc` below, over the body's payloads). At the first time block of a batch block the three
  are first reset (to a large negative number, 0 and 0); at the last one the body also writes `m' + log l'` and
  `acc' / l'` out. Every time block writes its block of scores. The lemmas say that what the frame run found in each
  buffer, case by case, is exactly that.
-/
import proofs.«173364_j57054345560395_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The stepped running maximum: the larger of the old one and the block's largest score. -/
def newMax (x0 : Vec F S8x128x1024 .f32) (x1 : Vec F S1024x1024 .bf16) (x2 : Vec F S1024 .f32) (x3 : Vec F S8x1024 .f32)
    (x4 : Vec F S1x1024 .f32) (x5 : Vec F S1 .f32) (ms : Vec F S8x1 .f32) : Vec F S8x1 .f32 :=
  k0_pay3 (k0_pay11 x0 x1 x2 x3 x4 x5 ms)

/-- The stepped running denominator: the old one rescaled to the new shift, plus the block's exponentials. -/
def newSum (x0 : Vec F S8x128x1024 .f32) (x1 : Vec F S1024x1024 .bf16) (x2 : Vec F S1024 .f32) (x3 : Vec F S8x1024 .f32)
    (x4 : Vec F S1x1024 .f32) (x5 : Vec F S1 .f32) (ms ls : Vec F S8x1 .f32) : Vec F S8x1 .f32 :=
  k0_pay1 (k0_pay12 x0 x1 x2 x3 x4 x5 ms) (k0_pay13 x0 x1 x2 x3 x4 x5 ms) ls

/-- The stepped running numerator: the old one rescaled to the new shift, plus the block's exponentials times the
    projected encoder states. -/
def newAcc (x0 : Vec F S8x128x1024 .f32) (x1 : Vec F S1024x1024 .bf16) (x2 : Vec F S1024 .f32) (x3 : Vec F S8x1024 .f32)
    (x4 : Vec F S1x1024 .f32) (x5 : Vec F S1 .f32) (ms : Vec F S8x1 .f32) (acc : Vec F S8x1024 .f32) : Vec F S8x1024 .f32 :=
  k0_pay2 (k0_pay9 x0 x1 x2) (k0_pay12 x0 x1 x2 x3 x4 x5 ms) (k0_pay13 x0 x1 x2 x3 x4 x5 ms) acc

/-- At a first time block the score output's staging buffer is left holding the block of scores. -/
theorem score_first (c : Dev nD) (i : grid0.Coords) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S8x1024 .f32) (harg8 : arg8.IsWhole) (arg9 : Memref sig .tc .vmem S8x128 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : cond0_0 i) (hc1 : ¬cond0_1 i) (x0 : Vec F S8x128x1024 .f32) (x1 : Vec F S1024x1024 .bf16) (x2 : Vec F S1024 .f32) (x3 : Vec F S8x1024 .f32) (x4 : Vec F S1x1024 .f32) (x5 : Vec F S1 .f32) :
    out0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay10 x0 x1 x2 x3 x4 x5 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  simp only [View.canon_cons_unit_zero (S := S8x1) hz2, View.canon_cons_unit_zero (S := S8x1024) hz2, View.canon_cons_unit_zero (S := S8x128) hz2,
    View.canon_unit_zero (S := S8x1) hz2, View.canon_unit_zero (S := S8x1024) hz2, View.canon_unit_zero (S := S8x128) hz2,
    View.readCov_unit_zero (S := S8x1) _ hz2, View.readCov_unit_zero (S := S8x1024) _ hz2,
    View.readAt_eq_ld, harg2.read_unread, harg3.read_unread, harg4.read_unread, harg5.read_unread, harg6.read_unread, harg7.read_unread,
    harg11.read_unread, harg12.read_unread, harg13.read_unread,
    View.ld_unit_zero (S := S8x128x1024) hz3, View.ld_unit_zero (S := S1024x1024) hz2, View.ld_unit_zero (S := S1024) hz1,
    View.ld_unit_zero (S := S8x1024) hz2, View.ld_unit_zero (S := S1x1024) hz2, View.ld_unit_zero (S := S1) hz1, View.ld_unit_zero (S := S8x1) hz2]
  try rfl

/-- At a middle time block the score output's staging buffer is left holding the block of scores. -/
theorem score_next (c : Dev nD) (i : grid0.Coords) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S8x1024 .f32) (harg8 : arg8.IsWhole) (arg9 : Memref sig .tc .vmem S8x128 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : ¬cond0_1 i) (x0 : Vec F S8x128x1024 .f32) (x1 : Vec F S1024x1024 .bf16) (x2 : Vec F S1024 .f32) (x3 : Vec F S8x1024 .f32) (x4 : Vec F S1x1024 .f32) (x5 : Vec F S1 .f32) (xs0 : Vec F S8x1 .f32) (xs1 : Vec F S8x1 .f32) (xs2 : Vec F S8x1024 .f32) :
    out0_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay10 x0 x1 x2 x3 x4 x5 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  simp only [View.canon_cons_unit_zero (S := S8x1) hz2, View.canon_cons_unit_zero (S := S8x1024) hz2, View.canon_cons_unit_zero (S := S8x128) hz2,
    View.canon_unit_zero (S := S8x1) hz2, View.canon_unit_zero (S := S8x1024) hz2, View.canon_unit_zero (S := S8x128) hz2,
    View.readCov_unit_zero (S := S8x1) _ hz2, View.readCov_unit_zero (S := S8x1024) _ hz2,
    View.readAt_eq_ld, harg2.read_unread, harg3.read_unread, harg4.read_unread, harg5.read_unread, harg6.read_unread, harg7.read_unread,
    harg11.read_unread, harg12.read_unread, harg13.read_unread,
    View.ld_unit_zero (S := S8x128x1024) hz3, View.ld_unit_zero (S := S1024x1024) hz2, View.ld_unit_zero (S := S1024) hz1,
    View.ld_unit_zero (S := S8x1024) hz2, View.ld_unit_zero (S := S1x1024) hz2, View.ld_unit_zero (S := S1) hz1, View.ld_unit_zero (S := S8x1) hz2]
  try rfl

/-- At a last time block the score output's staging buffer is left holding the block of scores. -/
theorem score_last (c : Dev nD) (i : grid0.Coords) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S8x1024 .f32) (harg8 : arg8.IsWhole) (arg9 : Memref sig .tc .vmem S8x128 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : cond0_1 i) (x0 : Vec F S8x128x1024 .f32) (x1 : Vec F S1024x1024 .bf16) (x2 : Vec F S1024 .f32) (x3 : Vec F S8x1024 .f32) (x4 : Vec F S1x1024 .f32) (x5 : Vec F S1 .f32) (xs0 : Vec F S8x1 .f32) (xs1 : Vec F S8x1 .f32) (xs2 : Vec F S8x1024 .f32) :
    out0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay10 x0 x1 x2 x3 x4 x5 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  simp only [View.canon_cons_unit_zero (S := S8x1) hz2, View.canon_cons_unit_zero (S := S8x1024) hz2, View.canon_cons_unit_zero (S := S8x128) hz2,
    View.canon_unit_zero (S := S8x1) hz2, View.canon_unit_zero (S := S8x1024) hz2, View.canon_unit_zero (S := S8x128) hz2,
    View.readCov_unit_zero (S := S8x1) _ hz2, View.readCov_unit_zero (S := S8x1024) _ hz2,
    View.readAt_eq_ld, harg2.read_unread, harg3.read_unread, harg4.read_unread, harg5.read_unread, harg6.read_unread, harg7.read_unread,
    harg11.read_unread, harg12.read_unread, harg13.read_unread,
    View.ld_unit_zero (S := S8x128x1024) hz3, View.ld_unit_zero (S := S1024x1024) hz2, View.ld_unit_zero (S := S1024) hz1,
    View.ld_unit_zero (S := S8x1024) hz2, View.ld_unit_zero (S := S1x1024) hz2, View.ld_unit_zero (S := S1) hz1, View.ld_unit_zero (S := S8x1) hz2]
  try rfl

/-- At a first time block the running maximum is stepped from its reset value. -/
theorem max_first (c : Dev nD) (i : grid0.Coords) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S8x1024 .f32) (harg8 : arg8.IsWhole) (arg9 : Memref sig .tc .vmem S8x128 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : cond0_0 i) (hc1 : ¬cond0_1 i) (x0 : Vec F S8x128x1024 .f32) (x1 : Vec F S1024x1024 .bf16) (x2 : Vec F S1024 .f32) (x3 : Vec F S8x1024 .f32) (x4 : Vec F S1x1024 .f32) (x5 : Vec F S1 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = newMax x0 x1 x2 x3 x4 x5 k0_pay6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  simp only [View.canon_cons_unit_zero (S := S8x1) hz2, View.canon_cons_unit_zero (S := S8x1024) hz2, View.canon_cons_unit_zero (S := S8x128) hz2,
    View.canon_unit_zero (S := S8x1) hz2, View.canon_unit_zero (S := S8x1024) hz2, View.canon_unit_zero (S := S8x128) hz2,
    View.readCov_unit_zero (S := S8x1) _ hz2, View.readCov_unit_zero (S := S8x1024) _ hz2,
    View.readAt_eq_ld, harg2.read_unread, harg3.read_unread, harg4.read_unread, harg5.read_unread, harg6.read_unread, harg7.read_unread,
    harg11.read_unread, harg12.read_unread, harg13.read_unread,
    View.ld_unit_zero (S := S8x128x1024) hz3, View.ld_unit_zero (S := S1024x1024) hz2, View.ld_unit_zero (S := S1024) hz1,
    View.ld_unit_zero (S := S8x1024) hz2, View.ld_unit_zero (S := S1x1024) hz2, View.ld_unit_zero (S := S1) hz1, View.ld_unit_zero (S := S8x1) hz2]
  try rfl

/-- At a first time block the running denominator is stepped from its reset value, zero. -/
theorem sum_first (c : Dev nD) (i : grid0.Coords) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S8x1024 .f32) (harg8 : arg8.IsWhole) (arg9 : Memref sig .tc .vmem S8x128 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : cond0_0 i) (hc1 : ¬cond0_1 i) (x0 : Vec F S8x128x1024 .f32) (x1 : Vec F S1024x1024 .bf16) (x2 : Vec F S1024 .f32) (x3 : Vec F S8x1024 .f32) (x4 : Vec F S1x1024 .f32) (x5 : Vec F S1 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = newSum x0 x1 x2 x3 x4 x5 k0_pay6 k0_pay7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  simp only [View.canon_cons_unit_zero (S := S8x1) hz2, View.canon_cons_unit_zero (S := S8x1024) hz2, View.canon_cons_unit_zero (S := S8x128) hz2,
    View.canon_unit_zero (S := S8x1) hz2, View.canon_unit_zero (S := S8x1024) hz2, View.canon_unit_zero (S := S8x128) hz2,
    View.readCov_unit_zero (S := S8x1) _ hz2, View.readCov_unit_zero (S := S8x1024) _ hz2,
    View.readAt_eq_ld, harg2.read_unread, harg3.read_unread, harg4.read_unread, harg5.read_unread, harg6.read_unread, harg7.read_unread,
    harg11.read_unread, harg12.read_unread, harg13.read_unread,
    View.ld_unit_zero (S := S8x128x1024) hz3, View.ld_unit_zero (S := S1024x1024) hz2, View.ld_unit_zero (S := S1024) hz1,
    View.ld_unit_zero (S := S8x1024) hz2, View.ld_unit_zero (S := S1x1024) hz2, View.ld_unit_zero (S := S1) hz1, View.ld_unit_zero (S := S8x1) hz2]
  try rfl

/-- At a first time block the running numerator is stepped from its reset value, zero. -/
theorem acc_first (c : Dev nD) (i : grid0.Coords) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S8x1024 .f32) (harg8 : arg8.IsWhole) (arg9 : Memref sig .tc .vmem S8x128 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : cond0_0 i) (hc1 : ¬cond0_1 i) (x0 : Vec F S8x128x1024 .f32) (x1 : Vec F S1024x1024 .bf16) (x2 : Vec F S1024 .f32) (x3 : Vec F S8x1024 .f32) (x4 : Vec F S1x1024 .f32) (x5 : Vec F S1 .f32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = newAcc x0 x1 x2 x3 x4 x5 k0_pay6 k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  simp only [View.canon_cons_unit_zero (S := S8x1) hz2, View.canon_cons_unit_zero (S := S8x1024) hz2, View.canon_cons_unit_zero (S := S8x128) hz2,
    View.canon_unit_zero (S := S8x1) hz2, View.canon_unit_zero (S := S8x1024) hz2, View.canon_unit_zero (S := S8x128) hz2,
    View.readCov_unit_zero (S := S8x1) _ hz2, View.readCov_unit_zero (S := S8x1024) _ hz2,
    View.readAt_eq_ld, harg2.read_unread, harg3.read_unread, harg4.read_unread, harg5.read_unread, harg6.read_unread, harg7.read_unread,
    harg11.read_unread, harg12.read_unread, harg13.read_unread,
    View.ld_unit_zero (S := S8x128x1024) hz3, View.ld_unit_zero (S := S1024x1024) hz2, View.ld_unit_zero (S := S1024) hz1,
    View.ld_unit_zero (S := S8x1024) hz2, View.ld_unit_zero (S := S1x1024) hz2, View.ld_unit_zero (S := S1) hz1, View.ld_unit_zero (S := S8x1) hz2]
  try rfl

/-- At a middle time block the running maximum is stepped from what the block before left. -/
theorem max_next (c : Dev nD) (i : grid0.Coords) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S8x1024 .f32) (harg8 : arg8.IsWhole) (arg9 : Memref sig .tc .vmem S8x128 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : ¬cond0_1 i) (x0 : Vec F S8x128x1024 .f32) (x1 : Vec F S1024x1024 .bf16) (x2 : Vec F S1024 .f32) (x3 : Vec F S8x1024 .f32) (x4 : Vec F S1x1024 .f32) (x5 : Vec F S1 .f32) (xs0 : Vec F S8x1 .f32) (xs1 : Vec F S8x1 .f32) (xs2 : Vec F S8x1024 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = newMax x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  simp only [View.canon_cons_unit_zero (S := S8x1) hz2, View.canon_cons_unit_zero (S := S8x1024) hz2, View.canon_cons_unit_zero (S := S8x128) hz2,
    View.canon_unit_zero (S := S8x1) hz2, View.canon_unit_zero (S := S8x1024) hz2, View.canon_unit_zero (S := S8x128) hz2,
    View.readCov_unit_zero (S := S8x1) _ hz2, View.readCov_unit_zero (S := S8x1024) _ hz2,
    View.readAt_eq_ld, harg2.read_unread, harg3.read_unread, harg4.read_unread, harg5.read_unread, harg6.read_unread, harg7.read_unread,
    harg11.read_unread, harg12.read_unread, harg13.read_unread,
    View.ld_unit_zero (S := S8x128x1024) hz3, View.ld_unit_zero (S := S1024x1024) hz2, View.ld_unit_zero (S := S1024) hz1,
    View.ld_unit_zero (S := S8x1024) hz2, View.ld_unit_zero (S := S1x1024) hz2, View.ld_unit_zero (S := S1) hz1, View.ld_unit_zero (S := S8x1) hz2]
  try rfl

/-- At a middle time block the running denominator is stepped from what the block before left. -/
theorem sum_next (c : Dev nD) (i : grid0.Coords) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S8x1024 .f32) (harg8 : arg8.IsWhole) (arg9 : Memref sig .tc .vmem S8x128 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : ¬cond0_1 i) (x0 : Vec F S8x128x1024 .f32) (x1 : Vec F S1024x1024 .bf16) (x2 : Vec F S1024 .f32) (x3 : Vec F S8x1024 .f32) (x4 : Vec F S1x1024 .f32) (x5 : Vec F S1 .f32) (xs0 : Vec F S8x1 .f32) (xs1 : Vec F S8x1 .f32) (xs2 : Vec F S8x1024 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = newSum x0 x1 x2 x3 x4 x5 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  simp only [View.canon_cons_unit_zero (S := S8x1) hz2, View.canon_cons_unit_zero (S := S8x1024) hz2, View.canon_cons_unit_zero (S := S8x128) hz2,
    View.canon_unit_zero (S := S8x1) hz2, View.canon_unit_zero (S := S8x1024) hz2, View.canon_unit_zero (S := S8x128) hz2,
    View.readCov_unit_zero (S := S8x1) _ hz2, View.readCov_unit_zero (S := S8x1024) _ hz2,
    View.readAt_eq_ld, harg2.read_unread, harg3.read_unread, harg4.read_unread, harg5.read_unread, harg6.read_unread, harg7.read_unread,
    harg11.read_unread, harg12.read_unread, harg13.read_unread,
    View.ld_unit_zero (S := S8x128x1024) hz3, View.ld_unit_zero (S := S1024x1024) hz2, View.ld_unit_zero (S := S1024) hz1,
    View.ld_unit_zero (S := S8x1024) hz2, View.ld_unit_zero (S := S1x1024) hz2, View.ld_unit_zero (S := S1) hz1, View.ld_unit_zero (S := S8x1) hz2]
  try rfl

/-- At a middle time block the running numerator is stepped from what the block before left. -/
theorem acc_next (c : Dev nD) (i : grid0.Coords) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S8x1024 .f32) (harg8 : arg8.IsWhole) (arg9 : Memref sig .tc .vmem S8x128 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : ¬cond0_1 i) (x0 : Vec F S8x128x1024 .f32) (x1 : Vec F S1024x1024 .bf16) (x2 : Vec F S1024 .f32) (x3 : Vec F S8x1024 .f32) (x4 : Vec F S1x1024 .f32) (x5 : Vec F S1 .f32) (xs0 : Vec F S8x1 .f32) (xs1 : Vec F S8x1 .f32) (xs2 : Vec F S8x1024 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = newAcc x0 x1 x2 x3 x4 x5 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  simp only [View.canon_cons_unit_zero (S := S8x1) hz2, View.canon_cons_unit_zero (S := S8x1024) hz2, View.canon_cons_unit_zero (S := S8x128) hz2,
    View.canon_unit_zero (S := S8x1) hz2, View.canon_unit_zero (S := S8x1024) hz2, View.canon_unit_zero (S := S8x128) hz2,
    View.readCov_unit_zero (S := S8x1) _ hz2, View.readCov_unit_zero (S := S8x1024) _ hz2,
    View.readAt_eq_ld, harg2.read_unread, harg3.read_unread, harg4.read_unread, harg5.read_unread, harg6.read_unread, harg7.read_unread,
    harg11.read_unread, harg12.read_unread, harg13.read_unread,
    View.ld_unit_zero (S := S8x128x1024) hz3, View.ld_unit_zero (S := S1024x1024) hz2, View.ld_unit_zero (S := S1024) hz1,
    View.ld_unit_zero (S := S8x1024) hz2, View.ld_unit_zero (S := S1x1024) hz2, View.ld_unit_zero (S := S1) hz1, View.ld_unit_zero (S := S8x1) hz2]
  try rfl

/-- At a last time block the running maximum is stepped from what the block before left. -/
theorem max_last (c : Dev nD) (i : grid0.Coords) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S8x1024 .f32) (harg8 : arg8.IsWhole) (arg9 : Memref sig .tc .vmem S8x128 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : cond0_1 i) (x0 : Vec F S8x128x1024 .f32) (x1 : Vec F S1024x1024 .bf16) (x2 : Vec F S1024 .f32) (x3 : Vec F S8x1024 .f32) (x4 : Vec F S1x1024 .f32) (x5 : Vec F S1 .f32) (xs0 : Vec F S8x1 .f32) (xs1 : Vec F S8x1 .f32) (xs2 : Vec F S8x1024 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = newMax x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  simp only [View.canon_cons_unit_zero (S := S8x1) hz2, View.canon_cons_unit_zero (S := S8x1024) hz2, View.canon_cons_unit_zero (S := S8x128) hz2,
    View.canon_unit_zero (S := S8x1) hz2, View.canon_unit_zero (S := S8x1024) hz2, View.canon_unit_zero (S := S8x128) hz2,
    View.readCov_unit_zero (S := S8x1) _ hz2, View.readCov_unit_zero (S := S8x1024) _ hz2,
    View.readAt_eq_ld, harg2.read_unread, harg3.read_unread, harg4.read_unread, harg5.read_unread, harg6.read_unread, harg7.read_unread,
    harg11.read_unread, harg12.read_unread, harg13.read_unread,
    View.ld_unit_zero (S := S8x128x1024) hz3, View.ld_unit_zero (S := S1024x1024) hz2, View.ld_unit_zero (S := S1024) hz1,
    View.ld_unit_zero (S := S8x1024) hz2, View.ld_unit_zero (S := S1x1024) hz2, View.ld_unit_zero (S := S1) hz1, View.ld_unit_zero (S := S8x1) hz2]
  try rfl

/-- At a last time block the running denominator is stepped from what the block before left. -/
theorem sum_last (c : Dev nD) (i : grid0.Coords) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S8x1024 .f32) (harg8 : arg8.IsWhole) (arg9 : Memref sig .tc .vmem S8x128 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : cond0_1 i) (x0 : Vec F S8x128x1024 .f32) (x1 : Vec F S1024x1024 .bf16) (x2 : Vec F S1024 .f32) (x3 : Vec F S8x1024 .f32) (x4 : Vec F S1x1024 .f32) (x5 : Vec F S1 .f32) (xs0 : Vec F S8x1 .f32) (xs1 : Vec F S8x1 .f32) (xs2 : Vec F S8x1024 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = newSum x0 x1 x2 x3 x4 x5 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  simp only [View.canon_cons_unit_zero (S := S8x1) hz2, View.canon_cons_unit_zero (S := S8x1024) hz2, View.canon_cons_unit_zero (S := S8x128) hz2,
    View.canon_unit_zero (S := S8x1) hz2, View.canon_unit_zero (S := S8x1024) hz2, View.canon_unit_zero (S := S8x128) hz2,
    View.readCov_unit_zero (S := S8x1) _ hz2, View.readCov_unit_zero (S := S8x1024) _ hz2,
    View.readAt_eq_ld, harg2.read_unread, harg3.read_unread, harg4.read_unread, harg5.read_unread, harg6.read_unread, harg7.read_unread,
    harg11.read_unread, harg12.read_unread, harg13.read_unread,
    View.ld_unit_zero (S := S8x128x1024) hz3, View.ld_unit_zero (S := S1024x1024) hz2, View.ld_unit_zero (S := S1024) hz1,
    View.ld_unit_zero (S := S8x1024) hz2, View.ld_unit_zero (S := S1x1024) hz2, View.ld_unit_zero (S := S1) hz1, View.ld_unit_zero (S := S8x1) hz2]
  try rfl

/-- At a last time block the running numerator is stepped from what the block before left. -/
theorem acc_last (c : Dev nD) (i : grid0.Coords) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S8x1024 .f32) (harg8 : arg8.IsWhole) (arg9 : Memref sig .tc .vmem S8x128 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : cond0_1 i) (x0 : Vec F S8x128x1024 .f32) (x1 : Vec F S1024x1024 .bf16) (x2 : Vec F S1024 .f32) (x3 : Vec F S8x1024 .f32) (x4 : Vec F S1x1024 .f32) (x5 : Vec F S1 .f32) (xs0 : Vec F S8x1 .f32) (xs1 : Vec F S8x1 .f32) (xs2 : Vec F S8x1024 .f32) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = newAcc x0 x1 x2 x3 x4 x5 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  simp only [View.canon_cons_unit_zero (S := S8x1) hz2, View.canon_cons_unit_zero (S := S8x1024) hz2, View.canon_cons_unit_zero (S := S8x128) hz2,
    View.canon_unit_zero (S := S8x1) hz2, View.canon_unit_zero (S := S8x1024) hz2, View.canon_unit_zero (S := S8x128) hz2,
    View.readCov_unit_zero (S := S8x1) _ hz2, View.readCov_unit_zero (S := S8x1024) _ hz2,
    View.readAt_eq_ld, harg2.read_unread, harg3.read_unread, harg4.read_unread, harg5.read_unread, harg6.read_unread, harg7.read_unread,
    harg11.read_unread, harg12.read_unread, harg13.read_unread,
    View.ld_unit_zero (S := S8x128x1024) hz3, View.ld_unit_zero (S := S1024x1024) hz2, View.ld_unit_zero (S := S1024) hz1,
    View.ld_unit_zero (S := S8x1024) hz2, View.ld_unit_zero (S := S1x1024) hz2, View.ld_unit_zero (S := S1) hz1, View.ld_unit_zero (S := S8x1) hz2]
  try rfl

/-- At a last time block the context output is the stepped numerator over the stepped denominator. -/
theorem ctx_last (c : Dev nD) (i : grid0.Coords) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S8x1024 .f32) (harg8 : arg8.IsWhole) (arg9 : Memref sig .tc .vmem S8x128 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : cond0_1 i) (x0 : Vec F S8x128x1024 .f32) (x1 : Vec F S1024x1024 .bf16) (x2 : Vec F S1024 .f32) (x3 : Vec F S8x1024 .f32) (x4 : Vec F S1x1024 .f32) (x5 : Vec F S1 .f32) (xs0 : Vec F S8x1 .f32) (xs1 : Vec F S8x1 .f32) (xs2 : Vec F S8x1024 .f32) :
    out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay5 (newAcc x0 x1 x2 x3 x4 x5 xs0 xs2) (newSum x0 x1 x2 x3 x4 x5 xs0 xs1) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  simp only [View.canon_cons_unit_zero (S := S8x1) hz2, View.canon_cons_unit_zero (S := S8x1024) hz2, View.canon_cons_unit_zero (S := S8x128) hz2,
    View.canon_unit_zero (S := S8x1) hz2, View.canon_unit_zero (S := S8x1024) hz2, View.canon_unit_zero (S := S8x128) hz2,
    View.readCov_unit_zero (S := S8x1) _ hz2, View.readCov_unit_zero (S := S8x1024) _ hz2,
    View.readAt_eq_ld, harg2.read_unread, harg3.read_unread, harg4.read_unread, harg5.read_unread, harg6.read_unread, harg7.read_unread,
    harg11.read_unread, harg12.read_unread, harg13.read_unread,
    View.ld_unit_zero (S := S8x128x1024) hz3, View.ld_unit_zero (S := S1024x1024) hz2, View.ld_unit_zero (S := S1024) hz1,
    View.ld_unit_zero (S := S8x1024) hz2, View.ld_unit_zero (S := S1x1024) hz2, View.ld_unit_zero (S := S1) hz1, View.ld_unit_zero (S := S8x1) hz2]
  try rfl

/-- At a last time block the log-sum-exp output is the stepped maximum plus the log of the stepped denominator. -/
theorem lse_last (c : Dev nD) (i : grid0.Coords) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1 .f32) (harg7 : arg7.IsWhole) (arg8 : Memref sig .tc .vmem S8x1024 .f32) (harg8 : arg8.IsWhole) (arg9 : Memref sig .tc .vmem S8x128 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x1024 .f32) (harg13 : arg13.IsWhole) (hc0 : ¬cond0_0 i) (hc1 : cond0_1 i) (x0 : Vec F S8x128x1024 .f32) (x1 : Vec F S1024x1024 .bf16) (x2 : Vec F S1024 .f32) (x3 : Vec F S8x1024 .f32) (x4 : Vec F S1x1024 .f32) (x5 : Vec F S1 .f32) (xs0 : Vec F S8x1 .f32) (xs1 : Vec F S8x1 .f32) (xs2 : Vec F S8x1024 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay4 (newMax x0 x1 x2 x3 x4 x5 xs0) (newSum x0 x1 x2 x3 x4 x5 xs0 xs1) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  simp only [View.canon_cons_unit_zero (S := S8x1) hz2, View.canon_cons_unit_zero (S := S8x1024) hz2, View.canon_cons_unit_zero (S := S8x128) hz2,
    View.canon_unit_zero (S := S8x1) hz2, View.canon_unit_zero (S := S8x1024) hz2, View.canon_unit_zero (S := S8x128) hz2,
    View.readCov_unit_zero (S := S8x1) _ hz2, View.readCov_unit_zero (S := S8x1024) _ hz2,
    View.readAt_eq_ld, harg2.read_unread, harg3.read_unread, harg4.read_unread, harg5.read_unread, harg6.read_unread, harg7.read_unread,
    harg11.read_unread, harg12.read_unread, harg13.read_unread,
    View.ld_unit_zero (S := S8x128x1024) hz3, View.ld_unit_zero (S := S1024x1024) hz2, View.ld_unit_zero (S := S1024) hz1,
    View.ld_unit_zero (S := S8x1024) hz2, View.ld_unit_zero (S := S1x1024) hz2, View.ld_unit_zero (S := S1) hz1, View.ld_unit_zero (S := S8x1) hz2]
  try rfl

end Cert.KernelIdeal.Pieces

end
-- ==== Proof.PayIdx.lean ====
/-
  The body's payloads read at one index, over the extended reals.

  With `x0` a block of encoder states [8, 128, 1024], `x1` the encoder weights [1024, 1024], `x2` the encoder bias,
  `x3` a block of projected decoder states [8, 1024], `x4` the score weights as a row [1, 1024], `x5` the score bias:

    encoder projection   (p, q, h) ↦ (Σ_d x0 (p, q, d) · x1 (d, h)) + x2 h
    score                (p, q)    ↦ (Σ_h tanh (x3 (p, h) + projection (p, q, h)) · x4 (0, h)) + x5 0
    new running maximum  p ↦ max (m p) (max_q score (p, q))
    rescale factor       p ↦ exp (m p - new maximum p)
    block exponentials   (p, q) ↦ exp (score (p, q) - new maximum p)
    new denominator      p ↦ factor p · l p + Σ_q exponential (p, q)
    new numerator        (p, h) ↦ factor p · acc (p, h) + Σ_q exponential (p, q) · projection (p, q, h)
    log-sum-exp          p ↦ m p + log (l p)
    context              (p, h) ↦ acc (p, h) / l p

  A change of float format is the identity here, a matrix product into a zero accumulator is the plain sum of
  products, a lane reduction is a finite sum (or a fold of `max` from `-inf`).
-/
import proofs.«173364_j57054345560395_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.ValueIdx

namespace Cert.KernelIdeal.PayIdx

open Cert.KernelIdeal Cert.KernelIdeal.Gen Facts₀ Facts

/-! ## Layout steps the payloads share -/

section Layout
variable {α : Type}

/-- A column `[a]` cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- Row `p` of `[8]` with lane `k` put back is `(p, k)` of `[8, 128]`. -/
theorem lift_lane (hr : S8x128.Reduces [1] S8) (p : Fin 8) (k : Fin (S8x128.size 1)) :
    hr.lift (ix1 p) k = ix2 p (⟨k.val, k.isLt⟩ : Fin 128) := by
  funext c; apply Fin.ext
  fin_cases c <;> rfl

/-- The sum over the lanes of an `[8, 128]` vector, at row `p`. -/
theorem laneSum_apply (src : FVec Ideal S8x128 .f32) (hr : S8x128.Reduces [1] S8) (hφ : FKind.Formats .f32)
    (hacc : (0x00000000#32 : BitVec 32) = FKind.add.neutral .f32 hφ) (p : Fin 8) :
    multiReduction .add [1] S8 src 0x00000000#32 hr hφ hacc (ix1 p) = ∑ q : Fin 128, src (ix2 p q) :=
  (Ideal.multiReduction_add_single src 0x00000000#32 hr hφ hacc (ix1 p)).trans
    (Finset.sum_congr rfl fun k _ => congrArg src (lift_lane hr p k))

/-- The maximum over the lanes of an `[8, 128]` vector, folded from `-inf`, at row `p`. -/
theorem laneMax_apply (src : FVec Ideal S8x128 .f32) (hr : S8x128.Reduces [1] S8) (hφ : FKind.Formats .f32)
    (hacc : (0xFF800000#32 : BitVec 32) = FKind.maximumf.neutral .f32 hφ) (p : Fin 8) :
    multiReduction .maximumf [1] S8 src 0xFF800000#32 hr hφ hacc (ix1 p)
      = (Finset.univ : Finset (Fin 128)).fold max (⊥ : EReal) fun q => src (ix2 p q) := by
  refine (Ideal.multiReduction_maximumf_single src 0xFF800000#32 hr hφ hacc (ix1 p)).trans ?_
  have hb : FloatOps.ofBits (F := Ideal) .f32 0xFF800000#32 = (⊥ : EReal) := by
    show Ideal.ofBits .f32 0xFF800000#32 = ⊥
    simp [Ideal.ofBits, Ideal.ieee]
  have hf : (src ∘ hr.lift (ix1 p)) = fun q : Fin 128 => src (ix2 p q) := funext fun k => congrArg src (lift_lane hr p k)
  rw [hb]
  exact congrArg (fun f => Finset.fold max (⊥ : EReal) f (Finset.univ : Finset (Fin 128))) hf

section Layout3
variable {α : Type}

/-- An `[a, b]` array cast to `[a, 1, b]` reads, at `(p, u, c)`, the operand at `(p, c)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (c : Fin b) :
    shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An `[a, 1, b]` array cast to `[a, b]` reads, at `(p, c)`, the operand at `(p, 0, c)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (c : Fin b) :
    shapeCast ⟨2, ![a, b]⟩ x h (ix2 p c) = x (ix3 p (0 : Fin 1) c) :=
  shapeCast_apply x h _ _ (by
    rw [Shape.rowMajor_val_three, Shape.rowMajor_val_two]
    show (p.val * 1 + 0) * b + c.val = p.val * b + c.val
    rw [Nat.mul_one, Nat.add_zero])

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

/-- A `[1, 1, b]` array broadcast to `[a, m, b]` reads, at `(p, q, c)`, the operand at `(0, 0, c)`. -/
theorem broadcastTo_11b_amb_apply {a m b : ℕ} (v : (⟨3, ![1, 1, b]⟩ : Shape).Idx → α)
    (h : (⟨3, ![1, 1, b]⟩ : Shape).Broadcasts ⟨3, ![a, m, b]⟩) (p : Fin a) (q : Fin m) (c : Fin b) :
    broadcastTo ⟨3, ![a, m, b]⟩ v h (ix3 p q c) = v (ix3 (0 : Fin 1) (0 : Fin 1) c) := by
  refine broadcastTo_apply v h (ix3 p q c) (ix3 (0 : Fin 1) (0 : Fin 1) c) fun ax => ?_
  match ax with
  | ⟨0, _⟩ => rfl
  | ⟨1, _⟩ => rfl
  | ⟨2, _⟩ =>
    show c.val = if b = 1 then 0 else c.val
    split
    · have := c.isLt; omega
    · rfl

end Layout3

/-- Entry `(p, q)` of `[8, 128]` with feature `k` put back is `(p, q, k)` of `[8, 128, 1024]`. -/
theorem lift_feat (hr : S8x128x1024.Reduces [2] S8x128) (p : Fin 8) (q : Fin 128) (k : Fin (S8x128x1024.size 2)) :
    hr.lift (ix2 p q) k = ix3 p q (⟨k.val, k.isLt⟩ : Fin 1024) := by
  funext c; apply Fin.ext
  fin_cases c <;> rfl

/-- The sum over the features of an `[8, 128, 1024]` vector, at `(p, q)`. -/
theorem featSum_apply (src : FVec Ideal S8x128x1024 .f32) (hr : S8x128x1024.Reduces [2] S8x128) (hφ : FKind.Formats .f32)
    (hacc : (0x00000000#32 : BitVec 32) = FKind.add.neutral .f32 hφ) (p : Fin 8) (q : Fin 128) :
    multiReduction .add [2] S8x128 src 0x00000000#32 hr hφ hacc (ix2 p q) = ∑ h : Fin 1024, src (ix3 p q h) :=
  (Ideal.multiReduction_add_single src 0x00000000#32 hr hφ hacc (ix2 p q)).trans
    (Finset.sum_congr rfl fun k _ => congrArg src (lift_feat hr p q k))

/-! ## The two matrix products -/

/-- Row `128 p + q` of a block `[8, 128, 1024]` flattened to `[1024, 1024]`. -/
abbrev row (p : Fin 8) (q : Fin 128) : Fin 1024 := ⟨128 * p.val + q.val, by have := p.isLt; have := q.isLt; omega⟩

section Flatten
variable {α : Type}

/-- The block flattened to `[1024, 1024]` reads, at `(128 p + q, d)`, the block at `(p, q, d)`. -/
theorem shapeCast_flat_apply (x : S8x128x1024.Idx → α) (h : S8x128x1024.ShapeCasts S1024x1024) (p : Fin 8) (q : Fin 128) (d : Fin 1024) :
    shapeCast S1024x1024 x h (ix2 (row p q) d) = x (ix3 p q d) :=
  shapeCast_apply x h _ _ (by
    rw [Shape.rowMajor_val_three, Shape.rowMajor_val_two]
    show (p.val * 128 + q.val) * 1024 + d.val = (128 * p.val + q.val) * 1024 + d.val
    omega)

/-- A `[1024, 1024]` array cut back into `[8, 128, 1024]` reads, at `(p, q, d)`, the array at `(128 p + q, d)`. -/
theorem shapeCast_unflat_apply (x : S1024x1024.Idx → α) (h : S1024x1024.ShapeCasts S8x128x1024) (p : Fin 8) (q : Fin 128) (d : Fin 1024) :
    shapeCast S8x128x1024 x h (ix3 p q d) = x (ix2 (row p q) d) :=
  shapeCast_apply x h _ _ (by
    rw [Shape.rowMajor_val_three, Shape.rowMajor_val_two]
    show (128 * p.val + q.val) * 1024 + d.val = (p.val * 128 + q.val) * 1024 + d.val
    omega)

end Flatten

theorem projL0 (i : S1024x1024.Idx) (k : dot_S1024x1024_S1024x1024_S1024x1024_1_0_0_1_n_n.contr.Idx) : (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem projL1 (i : S1024x1024.Idx) (k : dot_S1024x1024_S1024x1024_S1024x1024_1_0_0_1_n_n.contr.Idx) : (dot_S1024x1024_S1024x1024_S1024x1024_1_0_0_1_n_n.lhsIdx i k 1).val = (k ⟨0, by decide⟩).val :=
  dot_S1024x1024_S1024x1024_S1024x1024_1_0_0_1_n_n.lhsIdx_val_of_single rfl i k
theorem projR0 (i : S1024x1024.Idx) (k : dot_S1024x1024_S1024x1024_S1024x1024_1_0_0_1_n_n.contr.Idx) : (dot_S1024x1024_S1024x1024_S1024x1024_1_0_0_1_n_n.rhsIdx i k 0).val = (k ⟨0, by decide⟩).val :=
  dot_S1024x1024_S1024x1024_S1024x1024_1_0_0_1_n_n.rhsIdx_val_of_single rfl i k
theorem projR1 (i : S1024x1024.Idx) (k : dot_S1024x1024_S1024x1024_S1024x1024_1_0_0_1_n_n.contr.Idx) : (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The projection's matrix product into a zero accumulator, at `(i, h)`: the sum over the contracted axis. -/
theorem projMatmul_apply (l r : FVec Ideal S1024x1024 .bf16) (i h : Fin 1024) :
    matmul dot_S1024x1024_S1024x1024_S1024x1024_1_0_0_1_n_n none l r (constant S1024x1024 .f32 0x00000000#32) (ix2 i h) = ∑ d : Fin 1024, l (ix2 i d) * r (ix2 d h) := by
  show FloatOps.matmul dot_S1024x1024_S1024x1024_S1024x1024_1_0_0_1_n_n none l r (constant S1024x1024 .f32 0x00000000#32) (ix2 i h) = _
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 i h) ((ValueIdx.contrEquiv1 dot_S1024x1024_S1024x1024_S1024x1024_1_0_0_1_n_n 1024 rfl rfl).symm k) = ix2 i k := funext fun a => Fin.ext (by
    match a with
    | ⟨0, _⟩ => exact projL0 _ _
    | ⟨1, _⟩ => exact (projL1 _ _).trans hk)
  have er : dot_S1024x1024_S1024x1024_S1024x1024_1_0_0_1_n_n.rhsIdx (ix2 i h) ((ValueIdx.contrEquiv1 dot_S1024x1024_S1024x1024_S1024x1024_1_0_0_1_n_n 1024 rfl rfl).symm k) = ix2 k h := funext fun a => Fin.ext (by
    match a with
    | ⟨0, _⟩ => exact (projR0 _ _).trans hk
    | ⟨1, _⟩ => exact projR1 _ _)
  rw [el, er]

theorem numL0 (i : S8x1x1024.Idx) (k : dot_S8x1x128_S8x128x1024_S8x1x1024_2_1_1_2_0_0.contr.Idx) : (dot_S8x1x128_S8x128x1024_S8x1x1024_2_1_1_2_0_0.lhsIdx i k 0).val = (i 0).val := by
  unfold DotDims.lhsIdx
  rw [dif_pos (show (0 : Fin S8x1x128.rank) ∈ dot_S8x1x128_S8x128x1024_S8x1x1024_2_1_1_2_0_0.lhsBatch by decide)]
  rfl
theorem numL1 (i : S8x1x1024.Idx) (k : dot_S8x1x128_S8x128x1024_S8x1x1024_2_1_1_2_0_0.contr.Idx) : (dot_S8x1x128_S8x128x1024_S8x1x1024_2_1_1_2_0_0.lhsIdx i k 1).val = (i 1).val := by
  unfold DotDims.lhsIdx
  rw [dif_neg (show ¬(1 : Fin S8x1x128.rank) ∈ dot_S8x1x128_S8x128x1024_S8x1x1024_2_1_1_2_0_0.lhsBatch by decide), dif_pos (show (1 : Fin S8x1x128.rank) ∈ dot_S8x1x128_S8x128x1024_S8x1x1024_2_1_1_2_0_0.lhsNonContracting by decide)]
  rfl
theorem numL2 (i : S8x1x1024.Idx) (k : dot_S8x1x128_S8x128x1024_S8x1x1024_2_1_1_2_0_0.contr.Idx) : (dot_S8x1x128_S8x128x1024_S8x1x1024_2_1_1_2_0_0.lhsIdx i k 2).val = (k ⟨0, by decide⟩).val :=
  dot_S8x1x128_S8x128x1024_S8x1x1024_2_1_1_2_0_0.lhsIdx_val_of_single rfl i k
theorem numR0 (i : S8x1x1024.Idx) (k : dot_S8x1x128_S8x128x1024_S8x1x1024_2_1_1_2_0_0.contr.Idx) : (dot_S8x1x128_S8x128x1024_S8x1x1024_2_1_1_2_0_0.rhsIdx i k 0).val = (i 0).val := by
  unfold DotDims.rhsIdx
  rw [dif_pos (show (0 : Fin S8x128x1024.rank) ∈ dot_S8x1x128_S8x128x1024_S8x1x1024_2_1_1_2_0_0.rhsBatch by decide)]
  rfl
theorem numR1 (i : S8x1x1024.Idx) (k : dot_S8x1x128_S8x128x1024_S8x1x1024_2_1_1_2_0_0.contr.Idx) : (dot_S8x1x128_S8x128x1024_S8x1x1024_2_1_1_2_0_0.rhsIdx i k 1).val = (k ⟨0, by decide⟩).val :=
  dot_S8x1x128_S8x128x1024_S8x1x1024_2_1_1_2_0_0.rhsIdx_val_of_single rfl i k
theorem numR2 (i : S8x1x1024.Idx) (k : dot_S8x1x128_S8x128x1024_S8x1x1024_2_1_1_2_0_0.contr.Idx) : (dot_S8x1x128_S8x128x1024_S8x1x1024_2_1_1_2_0_0.rhsIdx i k 2).val = (i 2).val := by
  unfold DotDims.rhsIdx
  rw [dif_neg (show ¬(2 : Fin S8x128x1024.rank) ∈ dot_S8x1x128_S8x128x1024_S8x1x1024_2_1_1_2_0_0.rhsBatch by decide), dif_pos (show (2 : Fin S8x128x1024.rank) ∈ dot_S8x1x128_S8x128x1024_S8x1x1024_2_1_1_2_0_0.rhsNonContracting by decide)]
  rfl

/-- The numerator's batched matrix product into a zero accumulator, at `(p, u, h)`: per row `p`, the sum over the lanes. -/
theorem numMatmul_apply (l : FVec Ideal S8x1x128 .bf16) (r : FVec Ideal S8x128x1024 .bf16) (p : Fin 8) (u : Fin 1) (h : Fin 1024) :
    matmul dot_S8x1x128_S8x128x1024_S8x1x1024_2_1_1_2_0_0 none l r (constant S8x1x1024 .f32 0x00000000#32) (ix3 p u h) = ∑ q : Fin 128, l (ix3 p u q) * r (ix3 p q h) := by
  show FloatOps.matmul dot_S8x1x128_S8x128x1024_S8x1x1024_2_1_1_2_0_0 none l r (constant S8x1x1024 .f32 0x00000000#32) (ix3 p u h) = _
  rw [Ideal.matmul_constant_zero_apply, ← Equiv.sum_comp (ValueIdx.contrEquiv1 dot_S8x1x128_S8x128x1024_S8x1x1024_2_1_1_2_0_0 128 rfl rfl).symm]
  refine Finset.sum_congr rfl fun k _ => ?_
  have hk := ValueIdx.contrEquiv1_symm_val dot_S8x1x128_S8x128x1024_S8x1x1024_2_1_1_2_0_0 128 rfl rfl k
  have el : dot_S8x1x128_S8x128x1024_S8x1x1024_2_1_1_2_0_0.lhsIdx (ix3 p u h) ((ValueIdx.contrEquiv1 dot_S8x1x128_S8x128x1024_S8x1x1024_2_1_1_2_0_0 128 rfl rfl).symm k) = ix3 p u k := funext fun a => Fin.ext (by
    match a with
    | ⟨0, _⟩ => exact numL0 _ _
    | ⟨1, _⟩ => exact numL1 _ _
    | ⟨2, _⟩ => exact (numL2 _ _).trans hk)
  have er : dot_S8x1x128_S8x128x1024_S8x1x1024_2_1_1_2_0_0.rhsIdx (ix3 p u h) ((ValueIdx.contrEquiv1 dot_S8x1x128_S8x128x1024_S8x1x1024_2_1_1_2_0_0 128 rfl rfl).symm k) = ix3 p k h := funext fun a => Fin.ext (by
    match a with
    | ⟨0, _⟩ => exact numR0 _ _
    | ⟨1, _⟩ => exact (numR1 _ _).trans hk
    | ⟨2, _⟩ => exact numR2 _ _)
  rw [el, er]

/-! ## A finite word is a real number -/

/-- An f32 word whose exponent field is not all ones denotes a real number (a zero, a subnormal or a normal). -/
theorem ofBits_f32_real (b : BitVec 32) (hex : (b.extractLsb' 23 8).toNat ≠ 2 ^ 8 - 1) :
    ∃ r : ℝ, Ideal.ofBits .f32 b = (r : EReal) := by
  show ∃ r : ℝ, Ideal.ieee 8 23 b = (r : EReal)
  unfold Ideal.ieee
  dsimp only
  rw [if_neg hex]
  split
  · exact ⟨_, rfl⟩
  · exact ⟨_, rfl⟩

/-- The encoder projection of a block at one index. -/
theorem encBlk_apply (x0 : FVec Ideal S8x128x1024 .f32) (x1 : FVec Ideal S1024x1024 .bf16) (x2 : FVec Ideal S1024 .f32)
    (p : Fin 8) (q : Fin 128) (h : Fin 1024) :
    k0_pay9 (F := Ideal) x0 x1 x2 (ix3 p q h) = (∑ d : Fin 1024, x0 (ix3 p q d) * x1 (ix2 d h)) + x2 (ix1 h) := by
  unfold k0_pay9
  refine (shapeCast_unflat_apply _ _ p q h).trans ?_
  show matmul dot_S1024x1024_S1024x1024_S1024x1024_1_0_0_1_n_n none (truncf .bf16 (shapeCast S1024x1024 x0 _) _) (shapeCast S1024x1024 x1 _)
        (constant S1024x1024 .f32 0x00000000#32) (ix2 (row p q) h)
      + broadcastTo S1024x1024 (shapeCast S1x1024 x2 _) _ (ix2 (row p q) h) = _
  rw [projMatmul_apply, broadcastTo_1b_ab_apply, shapeCast_a_1a_apply]
  refine congrArg (· + x2 (ix1 h)) (Finset.sum_congr rfl fun d _ => ?_)
  show shapeCast S1024x1024 x0 _ (ix2 (row p q) d) * shapeCast S1024x1024 x1 _ (ix2 d h) = _
  rw [shapeCast_flat_apply, shapeCast_self]

/-- The score of a block at one index. -/
theorem scoreBlk_apply (x0 : FVec Ideal S8x128x1024 .f32) (x1 : FVec Ideal S1024x1024 .bf16) (x2 : FVec Ideal S1024 .f32) (x3 : FVec Ideal S8x1024 .f32) (x4 : FVec Ideal S1x1024 .f32) (x5 : FVec Ideal S1 .f32) (p : Fin 8) (q : Fin 128) :
    k0_pay10 (F := Ideal) x0 x1 x2 x3 x4 x5 (ix2 p q)
      = (∑ h : Fin 1024, Ideal.tanh (x3 (ix2 p h) + k0_pay9 (F := Ideal) x0 x1 x2 (ix3 p q h)) * x4 (ix2 0 h)) + x5 (ix1 0) := by
  unfold k0_pay10
  show multiReduction .add [2] S8x128 _ 0x00000000#32 _ _ _ (ix2 p q) + extractAt ![0] x5 _ = _
  refine congrArg₂ (· + ·) ((featSum_apply _ _ _ _ p q).trans (Finset.sum_congr rfl fun h _ => ?_))
    (congrArg x5 (funext fun a => Fin.ext (by match a with | ⟨0, _⟩ => rfl)))
  show Ideal.tanh (broadcastTo S8x128x1024 (shapeCast S8x1x1024 (shapeCast S8x1024 x3 _) _) _ (ix3 p q h)
      + k0_pay9 (F := Ideal) x0 x1 x2 (ix3 p q h))
    * broadcastTo S8x128x1024 (shapeCast S1x1x1024 (shapeCast S1x1024 x4 _) _) _ (ix3 p q h) = _
  rw [broadcastTo_a1b_amb_apply, shapeCast_ab_a1b_apply, shapeCast_self, broadcastTo_11b_amb_apply,
    shapeCast_ab_1ab_apply, shapeCast_self]

/-- The new running maximum of a row. -/
theorem newMax_apply (x0 : FVec Ideal S8x128x1024 .f32) (x1 : FVec Ideal S1024x1024 .bf16) (x2 : FVec Ideal S1024 .f32) (x3 : FVec Ideal S8x1024 .f32) (x4 : FVec Ideal S1x1024 .f32) (x5 : FVec Ideal S1 .f32) (ms : FVec Ideal S8x1 .f32) (p : Fin 8) :
    k0_pay11 (F := Ideal) x0 x1 x2 x3 x4 x5 ms (ix2 p 0)
      = max (ms (ix2 p 0)) ((Finset.univ : Finset (Fin 128)).fold max (⊥ : EReal) fun q => k0_pay10 (F := Ideal) x0 x1 x2 x3 x4 x5 (ix2 p q)) := by
  unfold k0_pay11
  show max (ms (ix2 p 0)) (shapeCast S8x1 _ _ (ix2 p (0 : Fin 1))) = _
  refine congrArg (max (ms (ix2 p 0))) ?_
  exact (shapeCast_a_a1_apply _ _ p 0).trans (laneMax_apply _ _ _ _ p)

/-- The factor that moves the old running sums to the new shift. -/
theorem corr_apply (x0 : FVec Ideal S8x128x1024 .f32) (x1 : FVec Ideal S1024x1024 .bf16) (x2 : FVec Ideal S1024 .f32) (x3 : FVec Ideal S8x1024 .f32) (x4 : FVec Ideal S1x1024 .f32) (x5 : FVec Ideal S1 .f32) (ms : FVec Ideal S8x1 .f32) (p : Fin 8) :
    k0_pay12 (F := Ideal) x0 x1 x2 x3 x4 x5 ms (ix2 p 0) = Ideal.exp (ms (ix2 p 0) - k0_pay11 (F := Ideal) x0 x1 x2 x3 x4 x5 ms (ix2 p 0)) := by
  rfl

/-- The block's exponentials relative to the new shift. -/
theorem expBlk_apply (x0 : FVec Ideal S8x128x1024 .f32) (x1 : FVec Ideal S1024x1024 .bf16) (x2 : FVec Ideal S1024 .f32) (x3 : FVec Ideal S8x1024 .f32) (x4 : FVec Ideal S1x1024 .f32) (x5 : FVec Ideal S1 .f32) (ms : FVec Ideal S8x1 .f32) (p : Fin 8) (q : Fin 128) :
    k0_pay13 (F := Ideal) x0 x1 x2 x3 x4 x5 ms (ix2 p q)
      = Ideal.exp (k0_pay10 (F := Ideal) x0 x1 x2 x3 x4 x5 (ix2 p q) - k0_pay11 (F := Ideal) x0 x1 x2 x3 x4 x5 ms (ix2 p 0)) := by
  unfold k0_pay13
  show Ideal.exp (k0_pay10 (F := Ideal) x0 x1 x2 x3 x4 x5 (ix2 p q)
    - broadcastTo S8x128 (k0_pay11 (F := Ideal) x0 x1 x2 x3 x4 x5 ms) _ (ix2 p q)) = _
  rw [broadcastTo_a1_ab_apply]

/-- The new running denominator of a row. -/
theorem sumStep_apply (v35 : FVec Ideal S8x1 .f32) (v38 : FVec Ideal S8x128 .f32) (v39 : FVec Ideal S8x1 .f32) (p : Fin 8) :
    k0_pay1 (F := Ideal) v35 v38 v39 (ix2 p 0) = v35 (ix2 p 0) * v39 (ix2 p 0) + ∑ q : Fin 128, v38 (ix2 p q) := by
  unfold k0_pay1
  refine (congrFun (shapeCast_self _ _) (ix2 p 0)).trans ?_
  show v35 (ix2 p 0) * v39 (ix2 p 0) + shapeCast S8x1 _ _ (ix2 p (0 : Fin 1)) = _
  refine congrArg (v35 (ix2 p 0) * v39 (ix2 p 0) + ·) ?_
  exact (shapeCast_a_a1_apply _ _ p 0).trans (laneSum_apply v38 _ _ _ p)

/-- The new running numerator of a row at one feature. -/
theorem accStep_apply (v13 : FVec Ideal S8x128x1024 .f32) (v35 : FVec Ideal S8x1 .f32) (v38 : FVec Ideal S8x128 .f32)
    (v52 : FVec Ideal S8x1024 .f32) (p : Fin 8) (h : Fin 1024) :
    k0_pay2 (F := Ideal) v13 v35 v38 v52 (ix2 p h) = v35 (ix2 p 0) * v52 (ix2 p h) + ∑ q : Fin 128, v38 (ix2 p q) * v13 (ix3 p q h) := by
  unfold k0_pay2
  refine (congrFun (shapeCast_self _ _) (ix2 p h)).trans ?_
  show broadcastTo S8x1024 v35 _ (ix2 p h) * v52 (ix2 p h)
      + shapeCast S8x1024 (matmul dot_S8x1x128_S8x128x1024_S8x1x1024_2_1_1_2_0_0 none (shapeCast S8x1x128 (truncf .bf16 v38 _) _) (truncf .bf16 v13 _)
          (constant S8x1x1024 .f32 0x00000000#32)) _ (ix2 p h) = _
  rw [broadcastTo_a1_ab_apply, shapeCast_a1b_ab_apply, numMatmul_apply]
  refine congrArg (v35 (ix2 p 0) * v52 (ix2 p h) + ·) (Finset.sum_congr rfl fun q _ => ?_)
  show shapeCast S8x1x128 (truncf .bf16 v38 _) _ (ix3 p (0 : Fin 1) q) * v13 (ix3 p q h) = _
  rw [shapeCast_ab_a1b_apply]
  rfl

/-- Storing the running maximum changes nothing in it. -/
theorem maxStore_eq (v33 : FVec Ideal S8x1 .f32) : k0_pay3 (F := Ideal) v33 = v33 := by
  unfold k0_pay3
  exact shapeCast_self v33 _

/-- The log-sum-exp of a row. -/
theorem lse_apply (v66 v67 : FVec Ideal S8x1 .f32) (p : Fin 8) :
    k0_pay4 (F := Ideal) v66 v67 (ix2 p 0) = v66 (ix2 p 0) + Ideal.log (v67 (ix2 p 0)) := by
  rfl

/-- The context of a row at one feature. -/
theorem ctx_apply (v71 : FVec Ideal S8x1024 .f32) (v72 : FVec Ideal S8x1 .f32) (p : Fin 8) (h : Fin 1024) :
    k0_pay5 (F := Ideal) v71 v72 (ix2 p h) = Ideal.div (v71 (ix2 p h)) (v72 (ix2 p 0)) := by
  unfold k0_pay5
  show Ideal.div (v71 (ix2 p h)) (broadcastTo S8x1024 v72 _ (ix2 p h)) = _
  rw [broadcastTo_a1_ab_apply]

/-- The reset value of the running maximum is a (large negative) real number. -/
theorem resetMax_apply (i : S8x1.Idx) : ∃ r : ℝ, k0_pay6 (F := Ideal) i = (r : EReal) := by
  have hv : k0_pay6 (F := Ideal) i = Ideal.ofBits .f32 0xFF333332#32 := by
    unfold k0_pay6
    exact congrFun (shapeCast_self _ _) i
  obtain ⟨r, hr⟩ := ofBits_f32_real 0xFF333332#32 (by decide)
  exact ⟨r, hv.trans hr⟩

/-- The reset value of the running denominator is zero. -/
theorem resetSum_apply (i : S8x1.Idx) : k0_pay7 (F := Ideal) i = 0 := by
  unfold k0_pay7
  refine (congrFun (shapeCast_self _ _) i).trans ?_
  exact Ideal.ofBits_zero_f32

/-- The reset value of the running numerator is zero. -/
theorem resetAcc_apply (i : S8x1024.Idx) : k0_pay8 (F := Ideal) i = 0 := by
  unfold k0_pay8
  refine (congrFun (shapeCast_self _ _) i).trans ?_
  exact Ideal.ofBits_zero_f32

end Cert.KernelIdeal.PayIdx

end
-- ==== Proof.Blocks.lean ====
/-
  Which entries of the arrays a grid point sees.

  The grid is 4 batch blocks by 16 time blocks; point `t` is batch block `t / 16`, time block `t % 16`. The encoder
  states' block at `t` is rows `8 (t / 16) + p`, times `128 (t % 16) + q`, all 1024 features; the projected decoder
  states' block is rows `8 (t / 16) + p`; the weights, the two biases and the score weights are seen whole at every
  point. Reading a block at block coordinates is reading the array, as the region finds it, at those entries.
-/
import proofs.«173364_j57054345560395_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The grid has 64 points. -/
theorem lt64 (t : Fin cfg0.N) : t.val < 64 := lt_of_lt_of_eq t.isLt (show cfg0.N = 64 from N_0)

/-- The printed index maps at every grid point: the batch block is `t / 16`, the time block `t % 16`. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = t.val / 16 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val / 16 ∧ win0_6.index t (1 : Fin 2) = 0
    ∧ win0_7.index t (0 : Fin 2) = t.val / 16 ∧ win0_7.index t (1 : Fin 2) = t.val % 16
    ∧ win0_8.index t (0 : Fin 2) = t.val / 16 ∧ win0_8.index t (1 : Fin 2) = 0 :=
  (by decide +kernel : ∀ t : Fin grid0.N, _)

/-- The encoder states' block at a point. -/
theorem encStates_apply (c : Dev nD) (t : Fin cfg0.N) (p : Fin 8) (q : Fin 128) (d : Fin 1024) :
    iblk m c 0 t (ix3 p q d)
      = V m c main_arg0 (ix3 (⟨8 * (t.val / 16) + p.val, by have := lt64 t; have := p.isLt; omega⟩ : Fin 32)
          (⟨128 * (t.val % 16) + q.val, by have := q.isLt; omega⟩ : Fin 2048) d) := by
  obtain ⟨e0, e1, e2, -⟩ := idx_facts t
  show V m c main_arg0 (((cfg0.win 0).blk t).view.emb (ix3 p q d)) = _
  refine congrArg _ (funext fun a => Fin.ext ?_)
  match a with
  | ⟨0, _⟩ => show win0_0.index t (0 : Fin 3) * 8 + 1 * p.val = 8 * (t.val / 16) + p.val; omega
  | ⟨1, _⟩ => show win0_0.index t (1 : Fin 3) * 128 + 1 * q.val = 128 * (t.val % 16) + q.val; omega
  | ⟨2, _⟩ => show win0_0.index t (2 : Fin 3) * 1024 + 1 * d.val = d.val; omega

/-- The encoder weights are seen whole. -/
theorem encWeights_apply (c : Dev nD) (t : Fin cfg0.N) (d h : Fin 1024) :
    iblk m c 1 t (ix2 d h) = V m c main_v4 (ix2 d h) := by
  obtain ⟨-, -, -, e0, e1, -⟩ := idx_facts t
  show V m c main_v4 (((cfg0.win 1).blk t).view.emb (ix2 d h)) = _
  refine congrArg _ (funext fun a => Fin.ext ?_)
  match a with
  | ⟨0, _⟩ => show win0_1.index t (0 : Fin 2) * 1024 + 1 * d.val = d.val; omega
  | ⟨1, _⟩ => show win0_1.index t (1 : Fin 2) * 1024 + 1 * h.val = h.val; omega

/-- The encoder bias is seen whole. -/
theorem encBias_apply (c : Dev nD) (t : Fin cfg0.N) (h : Fin 1024) :
    iblk m c 2 t (ix1 h) = V m c main_arg3 (ix1 h) := by
  obtain ⟨-, -, -, -, -, e0, -⟩ := idx_facts t
  show V m c main_arg3 (((cfg0.win 2).blk t).view.emb (ix1 h)) = _
  refine congrArg _ (funext fun a => Fin.ext ?_)
  match a with
  | ⟨0, _⟩ => show win0_2.index t (0 : Fin 1) * 1024 + 1 * h.val = h.val; omega

/-- The projected decoder states' block at a point. -/
theorem decStates_apply (c : Dev nD) (t : Fin cfg0.N) (p : Fin 8) (h : Fin 1024) :
    iblk m c 3 t (ix2 p h)
      = V m c main_v3 (ix2 (⟨8 * (t.val / 16) + p.val, by have := lt64 t; have := p.isLt; omega⟩ : Fin 32) h) := by
  obtain ⟨-, -, -, -, -, -, e0, e1, -⟩ := idx_facts t
  show V m c main_v3 (((cfg0.win 3).blk t).view.emb (ix2 p h)) = _
  refine congrArg _ (funext fun a => Fin.ext ?_)
  match a with
  | ⟨0, _⟩ => show win0_3.index t (0 : Fin 2) * 8 + 1 * p.val = 8 * (t.val / 16) + p.val; omega
  | ⟨1, _⟩ => show win0_3.index t (1 : Fin 2) * 1024 + 1 * h.val = h.val; omega

/-- The score weights, as a row, are seen whole. -/
theorem scoreWeights_apply (c : Dev nD) (t : Fin cfg0.N) (h : Fin 1024) :
    iblk m c 4 t (ix2 (0 : Fin 1) h) = V m c main_v5 (ix2 (0 : Fin 1) h) := by
  obtain ⟨-, -, -, -, -, -, -, -, e0, e1, -⟩ := idx_facts t
  show V m c main_v5 (((cfg0.win 4).blk t).view.emb (ix2 (0 : Fin 1) h)) = _
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * h.val = h.val; omega

/-- The score bias is seen whole. -/
theorem scoreBias_apply (c : Dev nD) (t : Fin cfg0.N) :
    iblk m c 5 t (ix1 (0 : Fin 1)) = V m c main_arg7 (ix1 (0 : Fin 1)) := by
  obtain ⟨-, -, -, -, -, -, -, -, -, -, e0, -⟩ := idx_facts t
  show V m c main_arg7 (((cfg0.win 5).blk t).view.emb (ix1 (0 : Fin 1))) = _
  refine congrArg _ (funext fun a => Fin.ext ?_)
  match a with
  | ⟨0, _⟩ => show win0_5.index t (0 : Fin 1) * 1 + 1 * 0 = 0; omega

end Cert.KernelIdeal.Blocks

end
-- ==== Proof.Spec.lean ====
/-
  The quantities both programs compute, as functions of the eight argument arrays, index by index over the extended
  reals: the projected encoder states, the projected decoder state, and the additive attention score.

    encP b t h  =  (sum over d of h_enc[b,t,d] * We[d,h]) + be[h]
    decP b h    =  (sum over d of h_dec[b,d] * Wd[d,h]) + bd[h]
    score b t   =  (sum over h of tanh (decP b h + encP b t h) * Wc[h,0]) + bc[0]

  Everything downstream (the softmax over the time axis and the weighted sum of the projected encoder states) is a
  function of `score` and `encP` alone.
-/
import Idealize.ShloMosaic.PureOps.Ideal
import Idealize.ShloMosaic.Lib.ValueIdx

noncomputable section

open scoped BigOperators

namespace Cert.Spec

open Idealize.ShloMosaic Idealize.ShloMosaic.ValueIdx

/-- The argument arrays' index sets, over literal shapes. -/
abbrev IEnc := (⟨3, ![32, 2048, 1024]⟩ : Shape).Idx
abbrev IDec := (⟨2, ![32, 1024]⟩ : Shape).Idx
abbrev IMat := (⟨2, ![1024, 1024]⟩ : Shape).Idx
abbrev IVec := (⟨1, ![1024]⟩ : Shape).Idx
abbrev ICol := (⟨2, ![1024, 1]⟩ : Shape).Idx
abbrev IOne := (⟨1, ![1]⟩ : Shape).Idx

variable (henc : IEnc → EReal) (hdec : IDec → EReal) (We : IMat → EReal) (be : IVec → EReal)
  (Wd : IMat → EReal) (bd : IVec → EReal) (Wc : ICol → EReal) (bc : IOne → EReal)

/-- The projected encoder state at batch row `b`, time `t`, feature `h`. -/
def encP (b : Fin 32) (t : Fin 2048) (h : Fin 1024) : EReal :=
  (∑ d : Fin 1024, henc (ix3 b t d) * We (ix2 d h)) + be (ix1 h)

/-- The projected decoder state at batch row `b`, feature `h`. -/
def decP (b : Fin 32) (h : Fin 1024) : EReal :=
  (∑ d : Fin 1024, hdec (ix2 b d) * Wd (ix2 d h)) + bd (ix1 h)

/-- The additive attention score at batch row `b`, time `t`. -/
def score (b : Fin 32) (t : Fin 2048) : EReal :=
  (∑ h : Fin 1024, Ideal.tanh (decP hdec Wd bd b h + encP henc We be b t h) * Wc (ix2 h 0)) + bc (ix1 0)

end Cert.Spec

end
-- ==== Proof.HostSide.lean ====
/-
  The host side of the kernel program, read at an index over the extended reals. Six host operations run before the
  region: a dot_general of arguments 1 and 4 plus argument 5 broadcast over the rows (the projected decoder state),
  a change of float format of argument 2 (the identity on extended reals), and a transpose of the [1024,1] argument 6
  to [1,1024]. Four run after it: result 2 (one value per batch row) broadcast along the time axis, subtracted from
  result 1, exponentiated, and given a trailing unit axis. Each buffer is first computed as the operations' term of
  the argument arrays, then that term is read at an index: a dot_general as the sum over the contracted coordinate, a
  broadcast at the coordinates its axes name (0 on a unit axis), a transpose at the swapped coordinates.
-/
import proofs.«173364_j57054345560395_2_alg».proof.Proof.Gen.KernelIdeal.Frame
import proofs.«173364_j57054345560395_2_alg».proof.Proof.Spec
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

open scoped BigOperators

namespace Cert.HostSide

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- The buffer of %3 as the region finds it: the host's dot_general of arguments 1 and 4 plus argument 5 broadcast
    twice (to one row, then to every row). -/
theorem V_main_v3_term :
    (V m c main_v3 : S32x1024.Idx → EReal)
      = addf (Host.dotGeneral (F := Ideal) (φ₁ := .f32) (φ₂ := .f32) dot_S32x1024_S1024x1024_S32x1024_1_0_0_1_n_n none
                (m ((c : Thread nD τ).loc main_arg1) : FVec Ideal S32x1024 .f32)
                (m ((c : Thread nD τ).loc main_arg4) : FVec Ideal S1024x1024 .f32))
             (broadcastInDim S32x1024 ![0, 1] bcast_S1x1024_S32x1024_0_1
                (broadcastInDim S1x1024 ![1] bcast_S1024_S1x1024_1 (m ((c : Thread nD τ).loc main_arg5)))) := by
  show StableHlo.after hostOps0 (fun b => m (c, b)) (Proc.devRef .tc main_v3) = _
  after_results

theorem V_main_v4_term :
    (V m c main_v4 : S1024x1024.Idx → EReal)
      = (truncf (F := Ideal) .bf16 (m ((c : Thread nD τ).loc main_arg2) : FVec Ideal S1024x1024 .f32) bitsLt_bf16_f32 : FVec Ideal S1024x1024 .bf16) := by
  show StableHlo.after hostOps0 (fun b => m (c, b)) (Proc.devRef .tc main_v4) = _
  after_results

theorem V_main_v5_term :
    (V m c main_v5 : S1x1024.Idx → EReal)
      = transpose S1x1024 [1, 0] (m ((c : Thread nD τ).loc main_arg6)) transposes_S1024x1_S1x1024_1_0 := by
  show StableHlo.after hostOps0 (fun b => m (c, b)) (Proc.devRef .tc main_v5) = _
  after_results

/-- The host's dot_general of a [32,1024] by a [1024,1024] array, contracting the first's axis 1 with the second's
    axis 0, at an index: the sum over the contracted coordinate. -/
theorem dot_apply (x1 : FVec Ideal S32x1024 .f32) (x4 : FVec Ideal S1024x1024 .f32) (i : S32x1024.Idx) :
    Host.dotGeneral (F := Ideal) dot_S32x1024_S1024x1024_S32x1024_1_0_0_1_n_n none x1 x4 i
      = ∑ k : Fin 1024, x1 (ix2 (i 0) k) * x4 (ix2 k (i 1)) := by
  simp only [Host.dotGeneral]
  rw [Ideal.dotGeneral_apply, ← Equiv.sum_comp (ValueIdx.contrEquiv1 dot_S32x1024_S1024x1024_S32x1024_1_0_0_1_n_n 1024 rfl rfl).symm]
  refine Finset.sum_congr rfl fun k _ => ?_
  have hk := ValueIdx.contrEquiv1_symm_val dot_S32x1024_S1024x1024_S32x1024_1_0_0_1_n_n 1024 rfl rfl k
  have el : dot_S32x1024_S1024x1024_S32x1024_1_0_0_1_n_n.lhsIdx i ((ValueIdx.contrEquiv1 dot_S32x1024_S1024x1024_S32x1024_1_0_0_1_n_n 1024 rfl rfl).symm k) = ix2 (i 0) k := funext fun a => Fin.ext (by
    match a with
    | ⟨0, _⟩ =>
      show (dot_S32x1024_S1024x1024_S32x1024_1_0_0_1_n_n.lhsIdx i _ 0).val = (i 0).val
      unfold DotDims.lhsIdx
      rw [dif_neg (show ¬(0 : Fin S32x1024.rank) ∈ dot_S32x1024_S1024x1024_S32x1024_1_0_0_1_n_n.lhsBatch by decide), dif_pos (show (0 : Fin S32x1024.rank) ∈ dot_S32x1024_S1024x1024_S32x1024_1_0_0_1_n_n.lhsNonContracting by decide)]
      rfl
    | ⟨1, _⟩ => exact (dot_S32x1024_S1024x1024_S32x1024_1_0_0_1_n_n.lhsIdx_val_of_single rfl i _).trans hk)
  have er : dot_S32x1024_S1024x1024_S32x1024_1_0_0_1_n_n.rhsIdx i ((ValueIdx.contrEquiv1 dot_S32x1024_S1024x1024_S32x1024_1_0_0_1_n_n 1024 rfl rfl).symm k) = ix2 k (i 1) := funext fun a => Fin.ext (by
    match a with
    | ⟨0, _⟩ => exact (dot_S32x1024_S1024x1024_S32x1024_1_0_0_1_n_n.rhsIdx_val_of_single rfl i _).trans hk
    | ⟨1, _⟩ =>
      show (dot_S32x1024_S1024x1024_S32x1024_1_0_0_1_n_n.rhsIdx i _ 1).val = (i 1).val
      unfold DotDims.rhsIdx
      rw [dif_neg (show ¬(1 : Fin S1024x1024.rank) ∈ dot_S32x1024_S1024x1024_S32x1024_1_0_0_1_n_n.rhsBatch by decide), dif_pos (show (1 : Fin S1024x1024.rank) ∈ dot_S32x1024_S1024x1024_S32x1024_1_0_0_1_n_n.rhsNonContracting by decide)]
      rfl)
  exact congrArg₂ (· * ·) (congrArg x1 el) (congrArg x4 er)

/-- A [1024] vector broadcast to one row and then to all 32 rows reads, at (b, h), the vector at h. -/
theorem bias_apply (x5 : FVec Ideal S1024 .f32) (i : S32x1024.Idx) :
    broadcastInDim S32x1024 ![0, 1] bcast_S1x1024_S32x1024_0_1 (broadcastInDim S1x1024 ![1] bcast_S1024_S1x1024_1 x5) i
      = x5 (ix1 (i 1)) := by
  rw [broadcastInDim_apply _ bcast_S1x1024_S32x1024_0_1 _ i (ix2 0 (i 1)) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])]
  exact broadcastInDim_apply _ bcast_S1024_S1x1024_1 x5 (ix2 0 (i 1)) (ix1 (i 1)) (fun a => match a with
    | ⟨0, _⟩ => by show (i 1).val = if (1024 : Nat) = 1 then 0 else (i 1).val; rw [if_neg (by decide)])

/-- (1) The projected decoder state: the buffer of %3, as the region finds it, is decP of arguments 1, 4 and 5. -/
theorem V_main_v3 :
    (V m c main_v3 : S32x1024.Idx → EReal)
      = fun i => Cert.Spec.decP (m ((c : Thread nD τ).loc main_arg1)) (m ((c : Thread nD τ).loc main_arg4))
          (m ((c : Thread nD τ).loc main_arg5)) (i 0) (i 1) := by
  rw [V_main_v3_term]
  funext i
  rw [addf_apply, dot_apply, bias_apply]
  rfl

/-- (2) The conversion of argument 2 to bf16 is the identity on extended reals. -/
theorem V_main_v4 (i : S1024x1024.Idx) : V m c main_v4 i = m ((c : Thread nD τ).loc main_arg2) i := by
  have h := congrFun (V_main_v4_term m c) i
  exact h

/-- (3) The transpose of the [1024,1] argument 6 to [1,1024]: entry (0, h) is argument 6 at (h, 0). -/
theorem V_main_v5 (h : Fin 1024) : V m c main_v5 (ix2 0 h) = m ((c : Thread nD τ).loc main_arg6) (ix2 h 0) := by
  have e := congrFun (V_main_v5_term m c) (ix2 0 h)
  refine e.trans ?_
  exact transpose_apply [1, 0] _ transposes_S1024x1_S1x1024_1_0 (ix2 0 h) (ix2 h 0) (fun b => match b with
    | ⟨0, _⟩ => rfl
    | ⟨1, _⟩ => rfl)

/-- The four host operations after the region at an index (b, t, 0), over any arrays in place of the region's results 1
    and 2: the second broadcast along the time axis, subtracted from the first, exponentiated, and given a trailing unit
    axis. -/
theorem tail_apply (a7 : FVec Ideal S32x2048 .f32) (a8 : FVec Ideal S32x1 .f32) (i : S32x2048x1.Idx) :
    broadcastInDim S32x2048x1 ![0, 1] bcast_S32x2048_S32x2048x1_0_1
        (Host.exp (F := Ideal) (subf a7 (broadcastInDim S32x2048 ![0, 1] bcast_S32x1_S32x2048_0_1 a8))) i
      = Ideal.exp (a7 (ix2 (i 0) (i 1)) - a8 (ix2 (i 0) 0)) := by
  rw [broadcastInDim_apply _ bcast_S32x2048_S32x2048x1_0_1 _ i (ix2 (i 0) (i 1)) (fun a => match a with
    | ⟨0, _⟩ => by show (i 0).val = if (32 : Nat) = 1 then 0 else (i 0).val; rw [if_neg (by decide)]
    | ⟨1, _⟩ => by show (i 1).val = if (2048 : Nat) = 1 then 0 else (i 1).val; rw [if_neg (by decide)])]
  show Ideal.exp (a7 (ix2 (i 0) (i 1)) - broadcastInDim S32x2048 ![0, 1] bcast_S32x1_S32x2048_0_1 a8 (ix2 (i 0) (i 1))) = _
  rw [broadcastInDim_apply _ bcast_S32x1_S32x2048_0_1 a8 (ix2 (i 0) (i 1)) (ix2 (i 0) 0) (fun a => match a with
    | ⟨0, _⟩ => by show (i 0).val = if (32 : Nat) = 1 then 0 else (i 0).val; rw [if_neg (by decide)]
    | ⟨1, _⟩ => by show 0 = if (1 : Nat) = 1 then 0 else (i 1).val; rw [if_pos rfl])]

/-- What the host operations after the region make of the region's results 1 (a [32,2048] array) and 2 (a [32,1] array):
    at (b, t, 0) the exponential of result 1 at (b, t) minus result 2 at (b, 0). -/
abbrev tailOf (a7 : S32x2048.Idx → EReal) (a8 : S32x1.Idx → EReal) : S32x2048x1.Idx → EReal :=
  fun i => Ideal.exp (a7 (ix2 (i 0) (i 1)) - a8 (ix2 (i 0) 0))

/-- (4) The second result after the host operations that follow the region, from the region's results 1 and 2 as the
    write-backs of all grid points leave them. -/
theorem tail_v10 :
    Pipeline.afterTail₀ cfgs (dats m) 0 (V0 m) [hostOps1] c main_v10
      = tailOf ((dats m 0 c).arrAt 7 cfg0.N) ((dats m 0 c).arrAt 8 cfg0.N) := by
  unfold Pipeline.afterTail₀
  show StableHlo.after hostOps1 _ (Proc.devRef .tc main_v10) = _
  after_results
  have e7 : Pipeline.withArrays (cfgs 0).spec c (V0 m c) (fun w => (dats m 0 c).arrAt w (cfgs 0).N) (Proc.devRef .tc main_v6_1)
      = (dats m 0 c).arrAt 7 cfg0.N :=
    Pipeline.withArrays_arr (τ := τ) spec0 launch0.win.arr_inj c (V0 m c) (fun w => (dats m 0 c).arrAt w cfg0.N) 7
  have e8 : Pipeline.withArrays (cfgs 0).spec c (V0 m c) (fun w => (dats m 0 c).arrAt w (cfgs 0).N) (Proc.devRef .tc main_v6_2)
      = (dats m 0 c).arrAt 8 cfg0.N :=
    Pipeline.withArrays_arr (τ := τ) spec0 launch0.win.arr_inj c (V0 m c) (fun w => (dats m 0 c).arrAt w cfg0.N) 8
  rw [e7, e8]
  exact funext fun i => tail_apply _ _ i

/-- (4), with the two arrays named: when the region's results 1 and 2 are a7 and a8, the second result is
    exp (a7 (b, t) - a8 (b, 0)) at (b, t, 0). -/
theorem tail_v10_of (a7 : S32x2048.Idx → EReal) (a8 : S32x1.Idx → EReal)
    (h7 : (dats m 0 c).arrAt 7 cfg0.N = a7) (h8 : (dats m 0 c).arrAt 8 cfg0.N = a8) :
    Pipeline.afterTail₀ cfgs (dats m) 0 (V0 m) [hostOps1] c main_v10
      = fun i => Ideal.exp (a7 (ix2 (i 0) (i 1)) - a8 (ix2 (i 0) 0)) := by
  rw [tail_v10, h7, h8]
  rfl

end Cert.HostSide

end
-- ==== Proof.Running.lean ====
/-
  The running state along the grid, and what the three outputs are at each point.

  Row `p` of the block at grid point `t` is row `8 (t / 16) + p` of the batch, and position `q` of its time block is time
  `128 (t % 16) + q`. With the blocks the point sees, the projection payload is `Spec.encP` at those entries and the
  score payload is `Spec.score` there (`encBlk_eq`, `scoreBlk_eq`).

  What the scratch buffers hold after point `t`: at the first time block of a batch block (`t % 16 = 0`) the stepped
  reset values; at every other point the step of what the point before left (`state_first`, `state_next`). The score
  output's buffer holds the block of scores at every point; at the last time block (`t % 16 = 15`) the other two outputs
  hold the context and the log-sum-exp of the state just stored (`score_out`, `ctx_out`, `lse_out`).
-/
import proofs.«173364_j57054345560395_2_alg».proof.Proof.Pieces
import proofs.«173364_j57054345560395_2_alg».proof.Proof.PayIdx
import proofs.«173364_j57054345560395_2_alg».proof.Proof.Blocks
import proofs.«173364_j57054345560395_2_alg».proof.Proof.HostSide
import proofs.«173364_j57054345560395_2_alg».proof.Proof.Spec

set_option maxRecDepth 16384

noncomputable section

open scoped BigOperators
open Idealize.ShloMosaic Idealize.ShloMosaic.TcCoe Idealize.SL.Sem Idealize.ShloMosaic.ValueIdx

namespace Cert.Running

open Cert.KernelIdeal Cert.KernelIdeal.Gen Cert.KernelIdeal.Pieces

variable (m : (ℓ : Loc nD τ sig) → Buf (Elt Ideal) ℓ) (c : Dev nD)

/-- The batch row that row `p` of the block at point `t` is. -/
abbrev row (t : Fin cfg0.N) (p : Fin 8) : Fin 32 :=
  ⟨8 * (t.val / 16) + p.val, by have := Cert.KernelIdeal.Blocks.lt64 t; have := p.isLt; omega⟩

/-- The time step that position `q` of the time block at point `t` is. -/
abbrev tim (t : Fin cfg0.N) (q : Fin 128) : Fin 2048 :=
  ⟨128 * (t.val % 16) + q.val, by have := q.isLt; omega⟩

/-- The projection payload over the blocks at `t` is the projected encoder state at that row, time and feature. -/
theorem encBlk_eq (t : Fin cfg0.N) (p : Fin 8) (q : Fin 128) (h : Fin 1024) :
    k0_pay9 (F := Ideal) (iblk m c 0 t) (iblk m c 1 t) (iblk m c 2 t) (ix3 p q h)
      = Cert.Spec.encP (m ((c : Thread nD τ).loc main_arg0)) (m ((c : Thread nD τ).loc main_arg2)) (m ((c : Thread nD τ).loc main_arg3))
          (row t p) (tim t q) h := by
  refine (Cert.KernelIdeal.PayIdx.encBlk_apply (iblk m c 0 t) (iblk m c 1 t) (iblk m c 2 t) p q h).trans ?_
  unfold Cert.Spec.encP
  refine congrArg₂ (· + ·) (Finset.sum_congr rfl fun d _ => ?_) ?_
  · rw [Cert.KernelIdeal.Blocks.encStates_apply, Cert.KernelIdeal.Blocks.encWeights_apply, V_main_arg0, Cert.HostSide.V_main_v4]
  · rw [Cert.KernelIdeal.Blocks.encBias_apply, V_main_arg3]

/-- The score payload over the blocks at `t` is the score at that row and time. -/
theorem scoreBlk_eq (t : Fin cfg0.N) (p : Fin 8) (q : Fin 128) :
    k0_pay10 (F := Ideal) (iblk m c 0 t) (iblk m c 1 t) (iblk m c 2 t) (iblk m c 3 t) (iblk m c 4 t) (iblk m c 5 t) (ix2 p q)
      = Cert.Spec.score (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (row t p) (tim t q) := by
  refine (Cert.KernelIdeal.PayIdx.scoreBlk_apply (iblk m c 0 t) (iblk m c 1 t) (iblk m c 2 t) (iblk m c 3 t) (iblk m c 4 t) (iblk m c 5 t) p q).trans ?_
  unfold Cert.Spec.score
  refine congrArg₂ (· + ·) (Finset.sum_congr rfl fun h _ => ?_) ?_
  · rw [encBlk_eq, Cert.KernelIdeal.Blocks.decStates_apply, Cert.KernelIdeal.Blocks.scoreWeights_apply, Cert.HostSide.V_main_v5,
      show V m c main_v3 (ix2 (row t p) h) = Cert.Spec.decP (m ((c : Thread nD τ).loc main_arg1)) (m ((c : Thread nD τ).loc main_arg4))
        (m ((c : Thread nD τ).loc main_arg5)) (row t p) h from congrFun (Cert.HostSide.V_main_v3 m c) (ix2 (row t p) h)]
  · rw [Cert.KernelIdeal.Blocks.scoreBias_apply, V_main_arg7]

/-! ## The state transition -/

/-- At the first time block of a batch block the scratch holds the stepped reset values. -/
theorem state_first (t : Fin cfg0.N) (h0 : t.val % 16 = 0) :
    (outsAt0 m c t.val t.isLt).2.2.2
      = (newMax (F := Ideal) (iblk m c 0 t) (iblk m c 1 t) (iblk m c 2 t) (iblk m c 3 t) (iblk m c 4 t) (iblk m c 5 t) (k0_pay6 (F := Ideal)), newSum (F := Ideal) (iblk m c 0 t) (iblk m c 1 t) (iblk m c 2 t) (iblk m c 3 t) (iblk m c 4 t) (iblk m c 5 t) (k0_pay6 (F := Ideal)) (k0_pay7 (F := Ideal)),
          newAcc (F := Ideal) (iblk m c 0 t) (iblk m c 1 t) (iblk m c 2 t) (iblk m c 3 t) (iblk m c 4 t) (iblk m c 5 t) (k0_pay6 (F := Ideal)) (k0_pay8 (F := Ideal))) := by
  have h1 : ¬ t.val % 16 = 15 := by omega
  rw [outsAt0_A m c t h0 h1]
  exact congrArg₂ Prod.mk (max_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t))
    (congrArg₂ Prod.mk (sum_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)) (acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)))

/-- At every other point the scratch holds the step of what the point before left. -/
theorem state_next (t : Fin cfg0.N) (h0 : ¬ t.val % 16 = 0) :
    (outsAt0 m c t.val t.isLt).2.2.2
      = (newMax (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1, newSum (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1, newAcc (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  by_cases h1 : t.val % 16 = 15
  · rw [outsAt0_C m c t h0 h1]
    exact congrArg₂ Prod.mk (max_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
      (congrArg₂ Prod.mk (sum_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2))
  · rw [outsAt0_B m c t h0 h1]
    exact congrArg₂ Prod.mk (max_next (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
      (congrArg₂ Prod.mk (sum_next (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (acc_next (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2))

/-- The score output's buffer holds the block of scores at every point. -/
theorem score_out (t : Fin cfg0.N) : (outsAt0 m c t.val t.isLt).2.1 = k0_pay10 (F := Ideal) (iblk m c 0 t) (iblk m c 1 t) (iblk m c 2 t) (iblk m c 3 t) (iblk m c 4 t) (iblk m c 5 t) := by
  by_cases h0 : t.val % 16 = 0
  · have h1 : ¬ t.val % 16 = 15 := by omega
    rw [outsAt0_A m c t h0 h1]
    exact score_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)
  · by_cases h1 : t.val % 16 = 15
    · rw [outsAt0_C m c t h0 h1]
      exact score_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    · rw [outsAt0_B m c t h0 h1]
      exact score_next (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- The first and the last two components of a six-tuple that is given as a literal tuple. -/
theorem comps6 {α β γ δ ε ζ : Type} (z : α × β × γ × δ × ε × ζ) (a : α) (b : β) (g : γ) (d : δ) (e : ε) (f : ζ)
    (h : z = (a, b, g, d, e, f)) : z.1 = a ∧ z.2.2.2.2.1 = e ∧ z.2.2.2.2.2 = f := by
  subst h; exact ⟨rfl, rfl, rfl⟩

/-- At the last time block the context output is the stored numerator over the stored denominator. -/
theorem ctx_out (t : Fin cfg0.N) (h1 : t.val % 16 = 15) :
    (outsAt0 m c t.val t.isLt).1
      = k0_pay5 (F := Ideal) (outsAt0 m c t.val t.isLt).2.2.2.2.2 (outsAt0 m c t.val t.isLt).2.2.2.2.1 := by
  have h0 : ¬ t.val % 16 = 0 := by omega
  obtain ⟨e6, eL, eA⟩ := comps6 _ _ _ _ _ _ _ (outsAt0_C m c t h0 h1)
  exact e6.trans ((ctx_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
    (congrArg₂ (k0_pay5 (F := Ideal)) ((acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm.trans eA.symm)
      ((sum_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm.trans eL.symm)))

/-- At the last time block the log-sum-exp output is the stored maximum plus the log of the stored denominator. -/
theorem lse_out (t : Fin cfg0.N) (h1 : t.val % 16 = 15) :
    (outsAt0 m c t.val t.isLt).2.2.1
      = k0_pay4 (F := Ideal) (outsAt0 m c t.val t.isLt).2.2.2.1 (outsAt0 m c t.val t.isLt).2.2.2.2.1 := by
  have h0 : ¬ t.val % 16 = 0 := by omega
  rw [outsAt0_C m c t h0 h1]
  refine (lse_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans ?_
  exact congrArg₂ (k0_pay4 (F := Ideal)) (max_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm (sum_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm

end Cert.Running

end
-- ==== Proof.Softmax.lean ====
/-
  Softmax over a finite index set is invariant under the shift subtracted before exponentiating, and the
  running ("online") form of it is an instance of that invariance.

  Over the reals, for a finite set `s`, scores `f`, values `g` and any two shifts `μ`, `μ'`:

    exp (μ - μ') * Σ_{t ∈ s} exp (f t - μ) * g t  =  Σ_{t ∈ s} exp (f t - μ') * g t            (rescale_sum)

  so a running pair (Σ exp (f - μ), Σ exp (f - μ) * g) kept relative to a running shift `μ` can be moved to a new shift
  by one multiplication, and at the end

    (Σ exp (f - μ) * g) / (Σ exp (f - μ))  =  Σ (exp (f - M) / Σ exp (f - M)) * g               (normalise)
    exp (f t - (μ + log Σ exp (f - μ)))    =  exp (f t - M) / Σ exp (f - M)                     (lse_shift)

  for every other shift `M`: the left sides are what a one-pass kernel computes, the right sides the textbook softmax.

  The second half of the file evaluates the extended-real operations on real arguments (`Ideal.exp`, `Ideal.log`,
  `Ideal.div`, finite sums, `max`, a fold of `max` from `⊥`), so that a computation on finite inputs can be carried
  out in the reals.
-/
import Idealize.ShloMosaic.PureOps.Ideal

noncomputable section

open scoped BigOperators

namespace Cert.Softmax

open Idealize.ShloMosaic

/-! ## Over the reals -/

section Real

variable {ι : Type*}

/-- Moving a weighted sum of exponentials from the shift `μ` to the shift `μ'`. -/
theorem rescale_sum (s : Finset ι) (f g : ι → ℝ) (μ μ' : ℝ) :
    Real.exp (μ - μ') * ∑ t ∈ s, Real.exp (f t - μ) * g t = ∑ t ∈ s, Real.exp (f t - μ') * g t := by
  rw [Finset.mul_sum]
  refine Finset.sum_congr rfl fun t _ => ?_
  rw [← mul_assoc, ← Real.exp_add]
  congr 2
  ring

/-- The same for the plain sum of exponentials. -/
theorem rescale_sum_one (s : Finset ι) (f : ι → ℝ) (μ μ' : ℝ) :
    Real.exp (μ - μ') * ∑ t ∈ s, Real.exp (f t - μ) = ∑ t ∈ s, Real.exp (f t - μ') := by
  have h := rescale_sum s f (fun _ => 1) μ μ'
  simpa using h

/-- A sum of exponentials over a nonempty set is positive. -/
theorem sum_exp_pos (s : Finset ι) (hs : s.Nonempty) (f : ι → ℝ) (μ : ℝ) : 0 < ∑ t ∈ s, Real.exp (f t - μ) :=
  Finset.sum_pos (fun _ _ => Real.exp_pos _) hs

/-- The weighted mean under the exponential weights does not depend on the shift. -/
theorem normalise (s : Finset ι) (hs : s.Nonempty) (f g : ι → ℝ) (μ M : ℝ) :
    (∑ t ∈ s, Real.exp (f t - μ) * g t) / (∑ t ∈ s, Real.exp (f t - μ))
      = ∑ t ∈ s, (Real.exp (f t - M) / ∑ u ∈ s, Real.exp (f u - M)) * g t := by
  have hZ : (∑ u ∈ s, Real.exp (f u - M)) ≠ 0 := (sum_exp_pos s hs f M).ne'
  have hc : Real.exp (M - μ) ≠ 0 := (Real.exp_pos _).ne'
  rw [← rescale_sum s f g M μ, ← rescale_sum_one s f M μ, mul_div_mul_left _ _ hc, Finset.sum_div]
  refine Finset.sum_congr rfl fun t _ => ?_
  rw [div_mul_eq_mul_div]

/-- The exponential of a score less the log-sum-exp, computed relative to any shift, is the softmax weight. -/
theorem lse_shift (s : Finset ι) (hs : s.Nonempty) (f : ι → ℝ) (μ M : ℝ) (x : ℝ) :
    Real.exp (x - (μ + Real.log (∑ t ∈ s, Real.exp (f t - μ))))
      = Real.exp (x - M) / ∑ u ∈ s, Real.exp (f u - M) := by
  have hL : 0 < ∑ t ∈ s, Real.exp (f t - μ) := sum_exp_pos s hs f μ
  have hZ : 0 < ∑ u ∈ s, Real.exp (f u - M) := sum_exp_pos s hs f M
  rw [show x - (μ + Real.log (∑ t ∈ s, Real.exp (f t - μ))) = (x - μ) - Real.log (∑ t ∈ s, Real.exp (f t - μ)) by ring,
    Real.exp_sub, Real.exp_log hL, ← rescale_sum_one s f M μ]
  rw [show x - μ = (M - μ) + (x - M) by ring, Real.exp_add, mul_div_mul_left _ _ (Real.exp_pos _).ne']

/-- The log-sum-exp does not depend on the shift it is computed relative to. -/
theorem lse_const (s : Finset ι) (hs : s.Nonempty) (f : ι → ℝ) (μ M : ℝ) :
    μ + Real.log (∑ t ∈ s, Real.exp (f t - μ)) = M + Real.log (∑ t ∈ s, Real.exp (f t - M)) := by
  have hZ : 0 < ∑ t ∈ s, Real.exp (f t - M) := sum_exp_pos s hs f M
  rw [← rescale_sum_one s f M μ, Real.log_mul (Real.exp_pos _).ne' hZ.ne', Real.log_exp]
  ring

end Real

/-! ## The extended-real operations on real arguments -/

section Coe

variable {ι : Type*}

/-- A finite sum of reals, read in the extended reals, is the sum of the coercions. -/
theorem coe_sum (s : Finset ι) (f : ι → ℝ) : ((∑ t ∈ s, f t : ℝ) : EReal) = ∑ t ∈ s, (f t : EReal) := by
  classical
  induction s using Finset.induction_on with
  | empty => simp
  | insert a s ha ih => rw [Finset.sum_insert ha, Finset.sum_insert ha, EReal.coe_add, ih]

theorem exp_sub_coe (a b : ℝ) : Ideal.exp ((a : EReal) - (b : EReal)) = (Real.exp (a - b) : EReal) := by
  rw [← EReal.coe_sub]; rfl

theorem log_coe_pos {a : ℝ} (h : 0 < a) : Ideal.log (a : EReal) = (Real.log a : EReal) := by
  rw [Ideal.log_coe, if_neg (not_le.2 h)]

theorem div_coe_coe (a : ℝ) {b : ℝ} (h : b ≠ 0) : Ideal.div (a : EReal) (b : EReal) = ((a / b : ℝ) : EReal) := by
  rw [Ideal.div_coe h, ← EReal.coe_mul, mul_one_div]

/-- The larger of two reals, read in the extended reals. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- A fold of `max` from `⊥` over real entries is `⊥` or a real: never `⊤`. -/
theorem fold_max_coe (s : Finset ι) (f : ι → ℝ) :
    s.fold max (⊥ : EReal) (fun t => (f t : EReal)) = ⊥ ∨ ∃ r : ℝ, s.fold max (⊥ : EReal) (fun t => (f t : EReal)) = (r : EReal) := by
  classical
  induction s using Finset.induction_on with
  | empty => left; simp
  | insert a s ha ih =>
    right
    rw [Finset.fold_insert ha]
    rcases ih with h | ⟨r, h⟩
    · exact ⟨f a, by rw [h, max_eq_left bot_le]⟩
    · exact ⟨max (f a) r, by rw [h, coe_max]⟩

/-- So the running maximum — the larger of a real and such a fold — is a real. -/
theorem max_coe_fold (μ : ℝ) (s : Finset ι) (f : ι → ℝ) :
    ∃ r : ℝ, max (μ : EReal) (s.fold max (⊥ : EReal) (fun t => (f t : EReal))) = (r : EReal) := by
  rcases fold_max_coe s f with h | ⟨r, h⟩
  · exact ⟨μ, by rw [h, max_eq_left bot_le]⟩
  · exact ⟨max μ r, by rw [h, coe_max]⟩

/-- Over a nonempty set the fold itself is a real. -/
theorem fold_max_coe_of_nonempty (s : Finset ι) (hs : s.Nonempty) (f : ι → ℝ) :
    ∃ r : ℝ, s.fold max (⊥ : EReal) (fun t => (f t : EReal)) = (r : EReal) := by
  classical
  rcases fold_max_coe s f with h | h
  · exfalso
    obtain ⟨a, ha⟩ := hs
    have : ((f a : ℝ) : EReal) ≤ s.fold max (⊥ : EReal) (fun t => (f t : EReal)) := by
      rw [← Finset.insert_erase ha, Finset.fold_insert (Finset.notMem_erase a s)]
      exact le_max_left _ _
    rw [h] at this
    exact absurd (le_bot_iff.1 this) (EReal.coe_ne_bot _)
  · exact h

end Coe

end Cert.Softmax

end
-- ==== Proof.OnlineStep.lean ====
/-
  The time axis cut into 16 blocks of 128, and one row's step of the running softmax over one block.

  `before j` is the set of time steps in the blocks before block `j`, `block j` those of block `j`: a sum over
  `before (j + 1)` is the sum over `before j` plus the sum over `block j`, a sum over `block j` is the sum over the 128
  positions `128 j + q`, nothing is before block 0 and everything is before block 16.

  The step: if the running shift, denominator and numerator are the real numbers `μ`, `L`, `A` and the block's scores and
  values are real, then the new shift `max μ (max_q σ q)` is a real `μ'` and the new denominator and numerator,
  computed with the extended-real operations, are the real numbers
      exp (μ - μ') · L + Σ_q exp (σ q - μ'),      exp (μ - μ') · A + Σ_q exp (σ q - μ') · ε q.
-/
import proofs.«173364_j57054345560395_2_alg».proof.Proof.Softmax

noncomputable section

open scoped BigOperators

namespace Cert.Online

open Idealize.ShloMosaic Cert.Softmax

/-- The time steps of the blocks before block `j`. -/
def before (j : ℕ) : Finset (Fin 2048) := Finset.univ.filter fun t => t.val / 128 < j

/-- The time steps of block `j`. -/
def block (j : ℕ) : Finset (Fin 2048) := Finset.univ.filter fun t => t.val / 128 = j

theorem before_zero : before 0 = ∅ := by
  ext t; simp [before]

theorem before_sixteen : before 16 = Finset.univ := by
  ext t
  have := t.isLt
  simp only [before, Finset.mem_filter, Finset.mem_univ, true_and, iff_true]
  omega

theorem before_succ_nonempty (j : ℕ) : (before (j + 1)).Nonempty :=
  ⟨⟨0, by norm_num⟩, by simp [before]⟩

theorem sum_before_succ {M : Type*} [AddCommMonoid M] (j : ℕ) (f : Fin 2048 → M) :
    ∑ t ∈ before (j + 1), f t = ∑ t ∈ before j, f t + ∑ t ∈ block j, f t := by
  unfold before block
  rw [Finset.sum_filter, Finset.sum_filter, Finset.sum_filter, ← Finset.sum_add_distrib]
  refine Finset.sum_congr rfl fun t _ => ?_
  by_cases h1 : t.val / 128 < j
  · have h2 : t.val / 128 < j + 1 := by omega
    have h3 : ¬ t.val / 128 = j := by omega
    rw [if_pos h1, if_pos h2, if_neg h3, add_zero]
  · by_cases h3 : t.val / 128 = j
    · have h2 : t.val / 128 < j + 1 := by omega
      rw [if_neg h1, if_pos h2, if_pos h3, zero_add]
    · have h2 : ¬ t.val / 128 < j + 1 := by omega
      rw [if_neg h1, if_neg h2, if_neg h3, add_zero]

theorem sum_block {M : Type*} [AddCommMonoid M] (j : ℕ) (hj : j < 16) (f : Fin 2048 → M) :
    ∑ t ∈ block j, f t = ∑ q : Fin 128, f ⟨128 * j + q.val, by have := q.isLt; omega⟩ := by
  symm
  refine Finset.sum_bij (fun q _ => (⟨128 * j + q.val, by have := q.isLt; omega⟩ : Fin 2048)) ?_ ?_ ?_ ?_
  · intro q _
    have := q.isLt
    simp only [block, Finset.mem_filter, Finset.mem_univ, true_and]
    omega
  · intro q1 _ q2 _ h
    have := congrArg Fin.val h
    simp only at this
    exact Fin.ext (by omega)
  · intro t ht
    simp only [block, Finset.mem_filter, Finset.mem_univ, true_and] at ht
    refine ⟨⟨t.val % 128, Nat.mod_lt _ (by norm_num)⟩, Finset.mem_univ _, ?_⟩
    apply Fin.ext
    show 128 * j + t.val % 128 = t.val
    omega
  · intro q _; rfl

/-- One row's step on real arguments. -/
theorem row_step (μ : ℝ) (σ : Fin 128 → ℝ) :
    ∃ μ' : ℝ, max (μ : EReal) ((Finset.univ : Finset (Fin 128)).fold max (⊥ : EReal) fun q => (σ q : EReal)) = (μ' : EReal)
      ∧ (∀ L : ℝ, Ideal.exp ((μ : EReal) - (μ' : EReal)) * (L : EReal) + ∑ q : Fin 128, Ideal.exp ((σ q : EReal) - (μ' : EReal))
          = ((Real.exp (μ - μ') * L + ∑ q : Fin 128, Real.exp (σ q - μ') : ℝ) : EReal))
      ∧ ∀ (A : ℝ) (ε : Fin 128 → ℝ),
          Ideal.exp ((μ : EReal) - (μ' : EReal)) * (A : EReal) + ∑ q : Fin 128, Ideal.exp ((σ q : EReal) - (μ' : EReal)) * (ε q : EReal)
            = ((Real.exp (μ - μ') * A + ∑ q : Fin 128, Real.exp (σ q - μ') * ε q : ℝ) : EReal) := by
  obtain ⟨μ', hμ'⟩ := max_coe_fold μ (Finset.univ : Finset (Fin 128)) σ
  refine ⟨μ', hμ', fun L => ?_, fun A ε => ?_⟩
  · rw [exp_sub_coe, EReal.coe_add, EReal.coe_mul, coe_sum]
    congr 1
  · rw [exp_sub_coe, EReal.coe_add, EReal.coe_mul, coe_sum]
    congr 1

end Cert.Online

end
-- ==== Proof.RowStep.lean ====
/-
  One batch row through one time block, and through the last one.

  Fix a row `p` of the block and write `s t`, `e t h` for that row's real scores and projected encoder states over the
  whole time axis. The running state is in CLOSED FORM before block `j` when, for some real shift `μ`,

      m p = μ,    l p = Σ_{t before block j} exp (s t - μ),    acc (p, h) = Σ_{t before block j} exp (s t - μ) · e t h.

  If the block's scores and projected states are the entries `128 j + q` of `s` and `e`, the stepped state is in closed
  form before block `j + 1` (`row_closed`): the old sums are moved to the new shift by the factor `exp (μ - μ')`, and
  the block's own terms are the ones with `t / 128 = j`. The reset values are the closed form before block 0, an empty
  sum (`reset_closed`). Before block 16 the sums run over the whole time axis, and the two outputs written at the last
  block are the log-sum-exp and the softmax-weighted mean of `e`, whatever shift they are expressed relative to
  (`row_outputs`).
-/
import proofs.«173364_j57054345560395_2_alg».proof.Proof.Pieces
import proofs.«173364_j57054345560395_2_alg».proof.Proof.PayIdx
import proofs.«173364_j57054345560395_2_alg».proof.Proof.OnlineStep

set_option maxRecDepth 16384

noncomputable section

open scoped BigOperators
open Idealize.ShloMosaic Idealize.ShloMosaic.ValueIdx

namespace Cert.RowStep

open Cert.KernelIdeal Cert.KernelIdeal.Gen Cert.KernelIdeal.Pieces Cert.KernelIdeal.PayIdx Cert.Online Cert.Softmax

/-- The running state of row `p` is in closed form over the time steps before block `j`. -/
def Closed (s : Fin 2048 → ℝ) (e : Fin 2048 → Fin 1024 → ℝ) (j : ℕ) (p : Fin 8)
    (ms ls : FVec Ideal S8x1 .f32) (acc : FVec Ideal S8x1024 .f32) : Prop :=
  ∃ μ : ℝ, ms (ix2 p 0) = (μ : EReal)
    ∧ ls (ix2 p 0) = ((∑ t ∈ before j, Real.exp (s t - μ) : ℝ) : EReal)
    ∧ ∀ h : Fin 1024, acc (ix2 p h) = ((∑ t ∈ before j, Real.exp (s t - μ) * e t h : ℝ) : EReal)

/-- The reset values are the closed form over nothing. -/
theorem reset_closed (s : Fin 2048 → ℝ) (e : Fin 2048 → Fin 1024 → ℝ) (p : Fin 8) :
    Closed s e 0 p (k0_pay6 (F := Ideal)) (k0_pay7 (F := Ideal)) (k0_pay8 (F := Ideal)) := by
  obtain ⟨μ, hμ⟩ := resetMax_apply (ix2 p 0)
  refine ⟨μ, hμ, ?_, fun h => ?_⟩
  · rw [resetSum_apply, before_zero, Finset.sum_empty, EReal.coe_zero]
  · rw [resetAcc_apply, before_zero, Finset.sum_empty, EReal.coe_zero]

/-- One time block keeps the closed form. -/
theorem row_closed (x0 : FVec Ideal S8x128x1024 .f32) (x1 : FVec Ideal S1024x1024 .bf16) (x2 : FVec Ideal S1024 .f32) (x3 : FVec Ideal S8x1024 .f32) (x4 : FVec Ideal S1x1024 .f32) (x5 : FVec Ideal S1 .f32)
    (ms ls : FVec Ideal S8x1 .f32) (acc : FVec Ideal S8x1024 .f32) (p : Fin 8)
    (s : Fin 2048 → ℝ) (e : Fin 2048 → Fin 1024 → ℝ) (j : ℕ) (hj : j < 16)
    (hsc : ∀ q : Fin 128, k0_pay10 (F := Ideal) x0 x1 x2 x3 x4 x5 (ix2 p q) = ((s ⟨128 * j + q.val, by have := q.isLt; omega⟩ : ℝ) : EReal))
    (hen : ∀ (q : Fin 128) (h : Fin 1024), k0_pay9 (F := Ideal) x0 x1 x2 (ix3 p q h) = ((e ⟨128 * j + q.val, by have := q.isLt; omega⟩ h : ℝ) : EReal))
    (hold : Closed s e j p ms ls acc) :
    Closed s e (j + 1) p (newMax (F := Ideal) x0 x1 x2 x3 x4 x5 ms) (newSum (F := Ideal) x0 x1 x2 x3 x4 x5 ms ls)
      (newAcc (F := Ideal) x0 x1 x2 x3 x4 x5 ms acc) := by
  obtain ⟨μ, hm, hl, ha⟩ := hold
  obtain ⟨μ', hμ', hL, hA⟩ := row_step μ (fun q : Fin 128 => s ⟨128 * j + q.val, by have := q.isLt; omega⟩)
  have hmax : k0_pay11 (F := Ideal) x0 x1 x2 x3 x4 x5 ms (ix2 p 0) = (μ' : EReal) := by
    rw [newMax_apply, hm, show (fun q : Fin 128 => k0_pay10 (F := Ideal) x0 x1 x2 x3 x4 x5 (ix2 p q))
      = fun q : Fin 128 => ((s ⟨128 * j + q.val, by have := q.isLt; omega⟩ : ℝ) : EReal) from funext hsc]
    exact hμ'
  have hexp : ∀ q : Fin 128, k0_pay13 (F := Ideal) x0 x1 x2 x3 x4 x5 ms (ix2 p q)
      = Ideal.exp (((s ⟨128 * j + q.val, by have := q.isLt; omega⟩ : ℝ) : EReal) - (μ' : EReal)) := fun q => by
    rw [expBlk_apply, hsc, hmax]
  have hcorr : k0_pay12 (F := Ideal) x0 x1 x2 x3 x4 x5 ms (ix2 p 0) = Ideal.exp ((μ : EReal) - (μ' : EReal)) := by
    rw [corr_apply, hm, hmax]
  refine ⟨μ', ?_, ?_, fun h => ?_⟩
  · show k0_pay3 (F := Ideal) (k0_pay11 x0 x1 x2 x3 x4 x5 ms) (ix2 p 0) = _
    rw [maxStore_eq]; exact hmax
  · show k0_pay1 (F := Ideal) (k0_pay12 x0 x1 x2 x3 x4 x5 ms) (k0_pay13 x0 x1 x2 x3 x4 x5 ms) ls (ix2 p 0) = _
    rw [sumStep_apply, hcorr, hl, Finset.sum_congr rfl (fun q _ => hexp q), hL]
    refine congrArg _ ?_
    rw [rescale_sum_one, sum_before_succ, sum_block j hj]
  · show k0_pay2 (F := Ideal) (k0_pay9 x0 x1 x2) (k0_pay12 x0 x1 x2 x3 x4 x5 ms) (k0_pay13 x0 x1 x2 x3 x4 x5 ms) acc (ix2 p h) = _
    have hsum : ∑ q : Fin 128, k0_pay13 (F := Ideal) x0 x1 x2 x3 x4 x5 ms (ix2 p q) * k0_pay9 (F := Ideal) x0 x1 x2 (ix3 p q h)
        = ∑ q : Fin 128, Ideal.exp (((s ⟨128 * j + q.val, by have := q.isLt; omega⟩ : ℝ) : EReal) - (μ' : EReal))
            * ((e ⟨128 * j + q.val, by have := q.isLt; omega⟩ h : ℝ) : EReal) :=
      Finset.sum_congr rfl fun q _ => by rw [hexp q, hen q h]
    rw [accStep_apply, hcorr, ha h, hsum,
      hA (∑ t ∈ before j, Real.exp (s t - μ) * e t h) (fun q : Fin 128 => e ⟨128 * j + q.val, by have := q.isLt; omega⟩ h)]
    refine congrArg _ ?_
    rw [rescale_sum, sum_before_succ, sum_block j hj]

/-- After the last time block the two outputs of a row are its log-sum-exp and the softmax-weighted mean of the
    projected encoder states, relative to any shift `M`. -/
theorem row_outputs (ms ls : FVec Ideal S8x1 .f32) (acc : FVec Ideal S8x1024 .f32) (p : Fin 8)
    (s : Fin 2048 → ℝ) (e : Fin 2048 → Fin 1024 → ℝ) (hold : Closed s e 16 p ms ls acc) (M : ℝ) :
    k0_pay4 (F := Ideal) ms ls (ix2 p 0) = ((M + Real.log (∑ t : Fin 2048, Real.exp (s t - M)) : ℝ) : EReal)
    ∧ ∀ h : Fin 1024, k0_pay5 (F := Ideal) acc ls (ix2 p h)
        = ((∑ t : Fin 2048, (Real.exp (s t - M) / ∑ u : Fin 2048, Real.exp (s u - M)) * e t h : ℝ) : EReal) := by
  obtain ⟨μ, hm, hl, ha⟩ := hold
  rw [before_sixteen] at hl ha
  have hne : (Finset.univ : Finset (Fin 2048)).Nonempty := ⟨⟨0, by norm_num⟩, Finset.mem_univ _⟩
  have hpos : 0 < ∑ t : Fin 2048, Real.exp (s t - μ) := sum_exp_pos _ hne s μ
  refine ⟨?_, fun h => ?_⟩
  · rw [lse_apply, hm, hl, log_coe_pos hpos, ← EReal.coe_add, lse_const _ hne s μ M]
  · rw [ctx_apply, ha h, hl, div_coe_coe _ hpos.ne', normalise _ hne s (fun t => e t h) μ M]

end Cert.RowStep

end
-- ==== Proof.Invariant.lean ====
/-
  The running state along the grid is in closed form, and the three output buffers hold what they should.

  With real scores `sR b t` and real projected encoder states `eR b t h`, after grid point `n` — batch block `n / 16`,
  time block `n % 16` — the scratch of every row `p` is in closed form over the time blocks up to and including
  `n % 16`: by induction on `n`, the first time block of a batch block stepping the reset values, every other one
  stepping what the point before left for the same batch rows (`closed_at`).

  Hence at every point the score buffer holds the scores of its rows and times, and at the last time block of a batch
  block the other two hold the rows' log-sum-exp and softmax-weighted mean of the projected encoder states, expressed
  relative to any real shift `M b` per batch row.
-/
import proofs.«173364_j57054345560395_2_alg».proof.Proof.Running
import proofs.«173364_j57054345560395_2_alg».proof.Proof.RowStep

set_option maxRecDepth 16384

noncomputable section

open scoped BigOperators
open Idealize.ShloMosaic Idealize.ShloMosaic.TcCoe Idealize.SL.Sem Idealize.ShloMosaic.ValueIdx

namespace Cert.Invariant

open Cert.KernelIdeal Cert.KernelIdeal.Gen Cert.KernelIdeal.Pieces Cert.Online Cert.Softmax Cert.RowStep Cert.Running

variable (m : (ℓ : Loc nD τ sig) → Buf (Elt Ideal) ℓ) (c : Dev nD)
variable (sR : Fin 32 → Fin 2048 → ℝ) (eR : Fin 32 → Fin 2048 → Fin 1024 → ℝ)
variable (hs : ∀ (b : Fin 32) (t : Fin 2048), Cert.Spec.score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b t = ((sR b t : ℝ) : EReal))
variable (he : ∀ (b : Fin 32) (t : Fin 2048) (h : Fin 1024), Cert.Spec.encP (m ((c : Thread nD τ).loc main_arg0)) (m ((c : Thread nD τ).loc main_arg2)) (m ((c : Thread nD τ).loc main_arg3)) b t h = ((eR b t h : ℝ) : EReal))

include hs he

/-- One grid point keeps the closed form of every row it sees. -/
theorem advance (t : Fin cfg0.N) (p : Fin 8) (ms ls : FVec Ideal S8x1 .f32) (acc : FVec Ideal S8x1024 .f32)
    (hold : Closed (sR (row t p)) (eR (row t p)) (t.val % 16) p ms ls acc) :
    Closed (sR (row t p)) (eR (row t p)) (t.val % 16 + 1) p
      (newMax (F := Ideal) (iblk m c 0 t) (iblk m c 1 t) (iblk m c 2 t) (iblk m c 3 t) (iblk m c 4 t) (iblk m c 5 t) ms) (newSum (F := Ideal) (iblk m c 0 t) (iblk m c 1 t) (iblk m c 2 t) (iblk m c 3 t) (iblk m c 4 t) (iblk m c 5 t) ms ls) (newAcc (F := Ideal) (iblk m c 0 t) (iblk m c 1 t) (iblk m c 2 t) (iblk m c 3 t) (iblk m c 4 t) (iblk m c 5 t) ms acc) :=
  row_closed (iblk m c 0 t) (iblk m c 1 t) (iblk m c 2 t) (iblk m c 3 t) (iblk m c 4 t) (iblk m c 5 t) ms ls acc p (sR (row t p)) (eR (row t p)) (t.val % 16) (Nat.mod_lt _ (by norm_num))
    (fun q => (scoreBlk_eq m c t p q).trans (hs (row t p) (tim t q)))
    (fun q h => (encBlk_eq m c t p q h).trans (he (row t p) (tim t q) h)) hold

omit hs he in
/-- Moving a closed form between equal rows and equal block counts. -/
theorem closed_congr {r r' : Fin 32} {j j' : ℕ} (hr : r' = r) (hj : j' = j) (p : Fin 8)
    (ms ls : FVec Ideal S8x1 .f32) (acc : FVec Ideal S8x1024 .f32)
    (h : Closed (sR r) (eR r) j p ms ls acc) : Closed (sR r') (eR r') j' p ms ls acc := by
  subst hr; subst hj; exact h

omit hs he in
/-- At a first time block the state's components. -/
theorem first_parts (t : Fin cfg0.N) (h0 : t.val % 16 = 0) :
    (outsAt0 m c t.val t.isLt).2.2.2.1 = newMax (F := Ideal) (iblk m c 0 t) (iblk m c 1 t) (iblk m c 2 t) (iblk m c 3 t) (iblk m c 4 t) (iblk m c 5 t) (k0_pay6 (F := Ideal))
    ∧ (outsAt0 m c t.val t.isLt).2.2.2.2.1 = newSum (F := Ideal) (iblk m c 0 t) (iblk m c 1 t) (iblk m c 2 t) (iblk m c 3 t) (iblk m c 4 t) (iblk m c 5 t) (k0_pay6 (F := Ideal)) (k0_pay7 (F := Ideal))
    ∧ (outsAt0 m c t.val t.isLt).2.2.2.2.2 = newAcc (F := Ideal) (iblk m c 0 t) (iblk m c 1 t) (iblk m c 2 t) (iblk m c 3 t) (iblk m c 4 t) (iblk m c 5 t) (k0_pay6 (F := Ideal)) (k0_pay8 (F := Ideal)) :=
  have hst := state_first m c t h0
  ⟨congrArg Prod.fst hst, congrArg (fun z => z.2.1) hst, congrArg (fun z => z.2.2) hst⟩

omit hs he in
/-- At any other point the state's components. -/
theorem next_parts (t : Fin cfg0.N) (h0 : ¬ t.val % 16 = 0) :
    (outsAt0 m c t.val t.isLt).2.2.2.1 = newMax (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1
    ∧ (outsAt0 m c t.val t.isLt).2.2.2.2.1 = newSum (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    ∧ (outsAt0 m c t.val t.isLt).2.2.2.2.2 = newAcc (F := Ideal) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2 :=
  have hst := state_next m c t h0
  ⟨congrArg Prod.fst hst, congrArg (fun z => z.2.1) hst, congrArg (fun z => z.2.2) hst⟩

/-- THE INVARIANT: after point `n` every row's scratch is in closed form over the time blocks up to `n % 16`. -/
theorem closed_at : ∀ (n : ℕ) (hn : n < cfg0.N) (p : Fin 8),
    Closed (sR (row ⟨n, hn⟩ p)) (eR (row ⟨n, hn⟩ p)) (n % 16 + 1) p (outsAt0 m c n hn).2.2.2.1 (outsAt0 m c n hn).2.2.2.2.1 (outsAt0 m c n hn).2.2.2.2.2
  | 0, hn, p => by
    obtain ⟨e1, e2, e3⟩ := first_parts m c ⟨0, hn⟩ rfl
    rw [e1, e2, e3]
    exact advance m c sR eR hs he ⟨0, hn⟩ p _ _ _ (reset_closed _ _ p)
  | n + 1, hn, p => by
    by_cases h0 : (n + 1) % 16 = 0
    · obtain ⟨e1, e2, e3⟩ := first_parts m c ⟨n + 1, hn⟩ h0
      rw [e1, e2, e3]
      refine advance m c sR eR hs he ⟨n + 1, hn⟩ p _ _ _ ?_
      exact closed_congr sR eR rfl h0 p _ _ _ (reset_closed _ _ p)
    · obtain ⟨e1, e2, e3⟩ := next_parts m c ⟨n + 1, hn⟩ h0
      rw [e1, e2, e3]
      refine advance m c sR eR hs he ⟨n + 1, hn⟩ p _ _ _ ?_
      have ih := closed_at n (Nat.lt_of_succ_lt hn) p
      have hr : row ⟨n + 1, hn⟩ p = row ⟨n, Nat.lt_of_succ_lt hn⟩ p := Fin.ext (by show 8 * ((n + 1) / 16) + p.val = 8 * (n / 16) + p.val; omega)
      have hj : (n + 1) % 16 = n % 16 + 1 := by omega
      exact closed_congr sR eR hr hj p _ _ _ ih

/-- At every point the score buffer holds the scores of its rows and times. -/
theorem score_point (t : Fin cfg0.N) (p : Fin 8) (q : Fin 128) :
    (outsAt0 m c t.val t.isLt).2.1 (ix2 p q) = ((sR (row t p) (tim t q) : ℝ) : EReal) :=
  ((congrFun (score_out m c t) (ix2 p q)).trans (scoreBlk_eq m c t p q)).trans (hs (row t p) (tim t q))

/-- At a last time block the log-sum-exp buffer holds the rows' log-sum-exp, relative to any shift. -/
theorem lse_point (M : Fin 32 → ℝ) (t : Fin cfg0.N) (h1 : t.val % 16 = 15) (p : Fin 8) :
    (outsAt0 m c t.val t.isLt).2.2.1 (ix2 p (0 : Fin 1))
      = ((M (row t p) + Real.log (∑ u : Fin 2048, Real.exp (sR (row t p) u - M (row t p))) : ℝ) : EReal) := by
  have hc := closed_at m c sR eR hs he t.val t.isLt p
  have h16 : t.val % 16 + 1 = 16 := by omega
  rw [h16] at hc
  rw [lse_out m c t h1]
  exact (row_outputs _ _ _ p _ _ hc (M (row t p))).1

/-- At a last time block the context buffer holds the rows' softmax-weighted mean of the projected encoder states. -/
theorem ctx_point (M : Fin 32 → ℝ) (t : Fin cfg0.N) (h1 : t.val % 16 = 15) (p : Fin 8) (h : Fin 1024) :
    (outsAt0 m c t.val t.isLt).1 (ix2 p h)
      = ((∑ u : Fin 2048, (Real.exp (sR (row t p) u - M (row t p)) / ∑ v : Fin 2048, Real.exp (sR (row t p) v - M (row t p)))
            * eR (row t p) u h : ℝ) : EReal) := by
  have hc := closed_at m c sR eR hs he t.val t.isLt p
  have h16 : t.val % 16 + 1 = 16 := by omega
  rw [h16] at hc
  rw [ctx_out m c t h1]
  exact (row_outputs _ _ _ p _ _ hc (M (row t p))).2 h

end Cert.Invariant

end
-- ==== Proof.Final.lean ====
/-
  From what each grid point leaves in the output windows to the arrays after the run, and the run read at those arrays.

  The grid is 4 batch blocks by 16 time blocks; point t is batch block t / 16, time block t % 16. Result 1 (the
  [32,2048] scores) is written back at every point: point t's [8,128] block is rows 8 (t / 16) + p, times
  128 (t % 16) + q, so the entry (r, s) is written by the point 16 (r / 8) + s / 128. Results 0 (the [32,1024] context
  rows) and 2 (the [32,1] normalizers) are written back only at the last time block of a batch block, t % 16 = 15:
  that point's block is rows 8 (t / 16) + p, so row r is written by the point 16 (r / 8) + 15. In each case the
  written blocks tile the array; hence if what a writing point leaves in its block is the block of one function G of
  the whole array, the array ends holding G.
-/
import proofs.«173364_j57054345560395_2_alg».proof.Proof.Gen.KernelIdeal.Frame
import proofs.«173364_j57054345560395_2_alg».proof.Proof.Blocks
import proofs.«173364_j57054345560395_2_alg».proof.Proof.HostSide
import Idealize.ShloMosaic.Lib.Pipeline.Value
import Idealize.ShloMosaic.Lib.ValueIdx

set_option maxRecDepth 16384

noncomputable section

namespace Cert.Final

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-- An index of result 1's array is in point t's block iff each coordinate is in the block's range on its axis. -/
theorem mem_blk7 (t : Fin cfg0.N) (i : S32x2048.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v6_1).slice (win0_7.rect t)).set ↔ _
  rw [View.set_slice_whole, Rect.mem_set_unit]
  exact Iff.rfl

theorem flushed7_eq (G7 : S32x2048.Idx → EReal)
    (H : ∀ (t : Fin cfg0.N) (p : Fin 8) (q : Fin 128), (outsAt0 m c t.val t.isLt).2.1 (ix2 p q)
          = G7 (ix2 (⟨8 * (t.val / 16) + p.val, by have := Cert.KernelIdeal.Blocks.lt64 t; have := p.isLt; omega⟩ : Fin 32)
                    (⟨128 * (t.val % 16) + q.val, by have := q.isLt; omega⟩ : Fin 2048)))
    (t : Fin cfg0.N) :
    (dats m 0 c).flushed 7 t = ((cfg0.win 7).blk t).view.read (Elt Ideal) G7 := by
  show (cfg0.win 7).cut (grid0.coords t) ((dats m 0 c).after 7 t) = _
  rw [after0_7]
  funext j
  obtain ⟨p, q, rfl⟩ : ∃ (p : Fin 8) (q : Fin 128), j = ix2 p q := ⟨j 0, j 1, eq_ix2 j⟩
  show (outsAt0 m c t.val t.isLt).2.1 (ix2 p q) = G7 (((cfg0.win 7).blk t).view.emb (ix2 p q))
  rw [H t p q]
  obtain ⟨-, -, -, -, -, -, -, -, -, -, -, -, -, e0, e1, -⟩ := Cert.KernelIdeal.Blocks.idx_facts t
  refine congrArg G7 (funext fun a => Fin.ext ?_)
  match a with
  | ⟨0, _⟩ => show 8 * (t.val / 16) + p.val = win0_7.index t (0 : Fin 2) * 8 + 1 * p.val; omega
  | ⟨1, _⟩ => show 128 * (t.val % 16) + q.val = win0_7.index t (1 : Fin 2) * 128 + 1 * q.val; omega

/-- (1) Result 1's array after all write-backs. -/
theorem final7 (G7 : S32x2048.Idx → EReal)
    (H : ∀ (t : Fin cfg0.N) (p : Fin 8) (q : Fin 128), (outsAt0 m c t.val t.isLt).2.1 (ix2 p q)
          = G7 (ix2 (⟨8 * (t.val / 16) + p.val, by have := Cert.KernelIdeal.Blocks.lt64 t; have := p.isLt; omega⟩ : Fin 32)
                    (⟨128 * (t.val % 16) + q.val, by have := q.isLt; omega⟩ : Fin 2048))) :
    (dats m 0 c).arrAt 7 cfg0.N = G7 := by
  refine (dats m 0 c).arrAt_eq_of_cover 7 G7 (fun t _ => flushed7_eq m c G7 H t) (fun i => ?_)
  have hi0 : (i 0).val < 32 := (i 0).isLt
  have hi1 : (i 1).val < 2048 := (i 1).isLt
  have hN : cfg0.N = 64 := N_0
  refine ⟨⟨16 * ((i 0).val / 8) + (i 1).val / 128, by omega⟩, flush0_7 _, ?_⟩
  rw [mem_blk7]
  obtain ⟨-, -, -, -, -, -, -, -, -, -, -, -, -, e0, e1, -⟩ := Cert.KernelIdeal.Blocks.idx_facts ⟨16 * ((i 0).val / 8) + (i 1).val / 128, by omega⟩
  intro a
  match a with
  | ⟨0, _⟩ =>
    show win0_7.index _ (0 : Fin 2) * 8 ≤ (i 0).val ∧ (i 0).val < win0_7.index _ (0 : Fin 2) * 8 + 8
    rw [e0]; dsimp only; omega
  | ⟨1, _⟩ =>
    show win0_7.index _ (1 : Fin 2) * 128 ≤ (i 1).val ∧ (i 1).val < win0_7.index _ (1 : Fin 2) * 128 + 128
    rw [e1]; dsimp only; omega

/-- An index of result 0's array is in point t's block iff each coordinate is in the block's range on its axis. -/
theorem mem_blk6 (t : Fin cfg0.N) (i : S32x1024.Idx) :
    i ∈ ((cfg0.win 6).blk t).view.set ↔ ∀ a : Fin 2, win0_6.index t a * S8x1024.size a ≤ (i a).val ∧ (i a).val < win0_6.index t a * S8x1024.size a + S8x1024.size a := by
  show i ∈ ((View.whole main_v6_0).slice (win0_6.rect t)).set ↔ _
  rw [View.set_slice_whole, Rect.mem_set_unit]
  exact Iff.rfl

/-- What a point that ends a batch block's sweep over time (t % 16 = 15) writes back into result 0: its eight rows of G6. -/
theorem flushed6_eq (G6 : S32x1024.Idx → EReal)
    (H : ∀ (t : Fin cfg0.N), t.val % 16 = 15 → ∀ (p : Fin 8) (h : Fin 1024), (outsAt0 m c t.val t.isLt).1 (ix2 p h)
          = G6 (ix2 (⟨8 * (t.val / 16) + p.val, by have := Cert.KernelIdeal.Blocks.lt64 t; have := p.isLt; omega⟩ : Fin 32) h))
    (t : Fin cfg0.N) (hf : t.val % 16 = 15) :
    (dats m 0 c).flushed 6 t = ((cfg0.win 6).blk t).view.read (Elt Ideal) G6 := by
  show (cfg0.win 6).cut (grid0.coords t) ((dats m 0 c).after 6 t) = _
  rw [after0_6]
  funext j
  obtain ⟨p, h, rfl⟩ : ∃ (p : Fin 8) (h : Fin 1024), j = ix2 p h := ⟨j 0, j 1, eq_ix2 j⟩
  show (outsAt0 m c t.val t.isLt).1 (ix2 p h) = G6 (((cfg0.win 6).blk t).view.emb (ix2 p h))
  rw [H t hf p h]
  obtain ⟨-, -, -, -, -, -, -, -, -, -, -, e0, e1, -⟩ := Cert.KernelIdeal.Blocks.idx_facts t
  refine congrArg G6 (funext fun a => Fin.ext ?_)
  match a with
  | ⟨0, _⟩ => show 8 * (t.val / 16) + p.val = win0_6.index t (0 : Fin 2) * 8 + 1 * p.val; omega
  | ⟨1, _⟩ => show h.val = win0_6.index t (1 : Fin 2) * 1024 + 1 * h.val; omega

/-- (2) Result 0's array after all write-backs: row r is written by the last point of its batch block, 16 (r / 8) + 15. -/
theorem final6 (G6 : S32x1024.Idx → EReal)
    (H : ∀ (t : Fin cfg0.N), t.val % 16 = 15 → ∀ (p : Fin 8) (h : Fin 1024), (outsAt0 m c t.val t.isLt).1 (ix2 p h)
          = G6 (ix2 (⟨8 * (t.val / 16) + p.val, by have := Cert.KernelIdeal.Blocks.lt64 t; have := p.isLt; omega⟩ : Fin 32) h)) :
    (dats m 0 c).arrAt 6 cfg0.N = G6 := by
  refine (dats m 0 c).arrAt_eq_of_cover 6 G6 (fun t hf => flushed6_eq m c G6 H t ((flush0_6 t).mp hf)) (fun i => ?_)
  have hi0 : (i 0).val < 32 := (i 0).isLt
  have hi1 : (i 1).val < 1024 := (i 1).isLt
  have hN : cfg0.N = 64 := N_0
  refine ⟨⟨16 * ((i 0).val / 8) + 15, by omega⟩, (flush0_6 _).mpr (by show (16 * ((i 0).val / 8) + 15) % 16 = 15; omega), ?_⟩
  rw [mem_blk6]
  obtain ⟨-, -, -, -, -, -, -, -, -, -, -, e0, e1, -⟩ := Cert.KernelIdeal.Blocks.idx_facts ⟨16 * ((i 0).val / 8) + 15, by omega⟩
  intro a
  match a with
  | ⟨0, _⟩ =>
    show win0_6.index _ (0 : Fin 2) * 8 ≤ (i 0).val ∧ (i 0).val < win0_6.index _ (0 : Fin 2) * 8 + 8
    rw [e0]; dsimp only; omega
  | ⟨1, _⟩ =>
    show win0_6.index _ (1 : Fin 2) * 1024 ≤ (i 1).val ∧ (i 1).val < win0_6.index _ (1 : Fin 2) * 1024 + 1024
    rw [e1]; omega

/-- An index of result 2's array is in point t's block iff each coordinate is in the block's range on its axis. -/
theorem mem_blk8 (t : Fin cfg0.N) (i : S32x1.Idx) :
    i ∈ ((cfg0.win 8).blk t).view.set ↔ ∀ a : Fin 2, win0_8.index t a * S8x1.size a ≤ (i a).val ∧ (i a).val < win0_8.index t a * S8x1.size a + S8x1.size a := by
  show i ∈ ((View.whole main_v6_2).slice (win0_8.rect t)).set ↔ _
  rw [View.set_slice_whole, Rect.mem_set_unit]
  exact Iff.rfl

/-- What a point with t % 16 = 15 writes back into result 2: its eight rows of G8. -/
theorem flushed8_eq (G8 : S32x1.Idx → EReal)
    (H : ∀ (t : Fin cfg0.N), t.val % 16 = 15 → ∀ (p : Fin 8), (outsAt0 m c t.val t.isLt).2.2.1 (ix2 p (0 : Fin 1))
          = G8 (ix2 (⟨8 * (t.val / 16) + p.val, by have := Cert.KernelIdeal.Blocks.lt64 t; have := p.isLt; omega⟩ : Fin 32) (0 : Fin 1)))
    (t : Fin cfg0.N) (hf : t.val % 16 = 15) :
    (dats m 0 c).flushed 8 t = ((cfg0.win 8).blk t).view.read (Elt Ideal) G8 := by
  show (cfg0.win 8).cut (grid0.coords t) ((dats m 0 c).after 8 t) = _
  rw [after0_8]
  funext j
  obtain ⟨p, q, rfl⟩ : ∃ (p : Fin 8) (q : Fin 1), j = ix2 p q := ⟨j 0, j 1, eq_ix2 j⟩
  obtain rfl : q = 0 := Fin.ext (by have := q.isLt; omega)
  show (outsAt0 m c t.val t.isLt).2.2.1 (ix2 p (0 : Fin 1)) = G8 (((cfg0.win 8).blk t).view.emb (ix2 p (0 : Fin 1)))
  rw [H t hf p]
  obtain ⟨-, -, -, -, -, -, -, -, -, -, -, -, -, -, -, e0, e1⟩ := Cert.KernelIdeal.Blocks.idx_facts t
  refine congrArg G8 (funext fun a => Fin.ext ?_)
  match a with
  | ⟨0, _⟩ => show 8 * (t.val / 16) + p.val = win0_8.index t (0 : Fin 2) * 8 + 1 * p.val; omega
  | ⟨1, _⟩ => show 0 = win0_8.index t (1 : Fin 2) * 1 + 1 * 0; omega

/-- (3) Result 2's array after all write-backs. -/
theorem final8 (G8 : S32x1.Idx → EReal)
    (H : ∀ (t : Fin cfg0.N), t.val % 16 = 15 → ∀ (p : Fin 8), (outsAt0 m c t.val t.isLt).2.2.1 (ix2 p (0 : Fin 1))
          = G8 (ix2 (⟨8 * (t.val / 16) + p.val, by have := Cert.KernelIdeal.Blocks.lt64 t; have := p.isLt; omega⟩ : Fin 32) (0 : Fin 1))) :
    (dats m 0 c).arrAt 8 cfg0.N = G8 := by
  refine (dats m 0 c).arrAt_eq_of_cover 8 G8 (fun t hf => flushed8_eq m c G8 H t ((flush0_8 t).mp hf)) (fun i => ?_)
  have hi0 : (i 0).val < 32 := (i 0).isLt
  have hi1 : (i 1).val < 1 := (i 1).isLt
  have hN : cfg0.N = 64 := N_0
  refine ⟨⟨16 * ((i 0).val / 8) + 15, by omega⟩, (flush0_8 _).mpr (by show (16 * ((i 0).val / 8) + 15) % 16 = 15; omega), ?_⟩
  rw [mem_blk8]
  obtain ⟨-, -, -, -, -, -, -, -, -, -, -, -, -, -, -, e0, e1⟩ := Cert.KernelIdeal.Blocks.idx_facts ⟨16 * ((i 0).val / 8) + 15, by omega⟩
  intro a
  match a with
  | ⟨0, _⟩ =>
    show win0_8.index _ (0 : Fin 2) * 8 ≤ (i 0).val ∧ (i 0).val < win0_8.index _ (0 : Fin 2) * 8 + 8
    rw [e0]; dsimp only; omega
  | ⟨1, _⟩ =>
    show win0_8.index _ (1 : Fin 2) * 1 ≤ (i 1).val ∧ (i 1).val < win0_8.index _ (1 : Fin 2) * 1 + 1
    rw [e1]; omega

/-- (4) The kernel program's run, read: every weakly fair execution terminates with result 0 at G6, the second result at
    exp (G7 (b, t) - G8 (b, 0)), and the eight argument arrays unchanged. -/
theorem run_read (ρ : Dev nD → PrngReg) (G6 : Dev nD → S32x1024.Idx → EReal) (G7 : Dev nD → S32x2048.Idx → EReal)
    (G8 : Dev nD → S32x1.Idx → EReal)
    (h6 : ∀ c, (dats m 0 c).arrAt 6 cfg0.N = G6 c) (h7 : ∀ c, (dats m 0 c).arrAt 7 cfg0.N = G7 c)
    (h8 : ∀ c, (dats m 0 c).arrAt 8 cfg0.N = G8 c) :
    θ_run defs (onTc (τ := τ) (main (F := Ideal))) ⟨m, fun _ => 0, ρ⟩ (fun r => ∀ c : Dev nD,
        r.2.mem ((c.tc : Thread nD τ).loc main_v6_0) = G6 c
      ∧ r.2.mem ((c.tc : Thread nD τ).loc main_v10) = (fun i => Ideal.exp (G7 c (ix2 (i 0) (i 1)) - G8 c (ix2 (i 0) 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 6).trans (h6 c),
      ((h c).2 main_v10 (Pipeline.mem_restRefs_of main_v10 (by decide) (by decide))).trans
        (Cert.HostSide.tail_v10_of m c _ _ (h7 c) (h8 c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 5).trans (((dats m 0 c).arrAt_in 5 rfl _).trans ((A_eq m c 5).trans (V_main_arg7 m c)))⟩) (run_main m ρ)

end Cert.Final

end
-- ==== Proof.RefValue.lean ====
/-
  The reference program, read down to formulas over the attention score and the projected encoder states.

  After the score the reference takes a softmax over the time axis and then the attention-weighted sum of the projected
  encoder states. With `score b t` and `encP b t h` as the specification has them:

    refMax b     =  max (-inf) (the maximum over t of score b t, folded from -inf)
    refExp b t   =  exp (score b t - refMax b)
    refSum b     =  0 + (sum over t of refExp b t)
    refAttn b t  =  refExp b t / refSum b                         -- the second result, [32, 2048, 1], at (b, t, 0)
    refCtx b h   =  0 + (sum over t of refAttn b t * encP b t h)   -- the first result, [32, 1024], at (b, h)

  The initial values of the maximum and of the two sums are kept where the program has them (the maximum is folded from
  -inf and then once more compared with -inf; each sum starts from the zero word): nothing is simplified away here.
  Every stage is read at an index given by its coordinates, so that each coordinate has a literal `Fin` type.
-/
import proofs.«173364_j57054345560395_2_alg».proof.Proof.Gen.ReferenceIdeal.Read
import proofs.«173364_j57054345560395_2_alg».proof.Proof.Spec

noncomputable section

open scoped BigOperators

namespace Cert.RefValue

open Cert.ReferenceIdeal Cert.ReferenceIdeal.Gen Cert.ReferenceIdeal.Read Idealize.ShloMosaic Idealize.ShloMosaic.ValueIdx

variable (x0 : (⟨S32x2048x1024, .f32⟩ : BufTy).Contents (Elt Ideal)) (x1 : (⟨S32x1024, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1, .f32⟩ : BufTy).Contents (Elt Ideal)) (x7 : (⟨S1, .f32⟩ : BufTy).Contents (Elt Ideal))

/-! ## The softmax over the time axis and the weighted sum, as the reference takes them -/

/-- The maximum over the time axis of the score at batch row `b`: folded from -inf, and then compared with -inf once more. -/
def refMax (b : Fin 32) : EReal :=
  max (⊥ : EReal) ((Finset.univ : Finset (Fin 2048)).fold max (⊥ : EReal) fun t => Cert.Spec.score x0 x1 x2 x3 x4 x5 x6 x7 b t)

/-- The exponential of the score less the row's maximum. -/
def refExp (b : Fin 32) (t : Fin 2048) : EReal :=
  Ideal.exp (Cert.Spec.score x0 x1 x2 x3 x4 x5 x6 x7 b t - refMax x0 x1 x2 x3 x4 x5 x6 x7 b)

/-- The softmax's denominator at batch row `b`: the sum over the time axis of the exponentials, from zero. -/
def refSum (b : Fin 32) : EReal :=
  0 + ∑ t : Fin 2048, refExp x0 x1 x2 x3 x4 x5 x6 x7 b t

/-- The attention weight at batch row `b`, time `t`. -/
def refAttn (b : Fin 32) (t : Fin 2048) : EReal :=
  Ideal.div (refExp x0 x1 x2 x3 x4 x5 x6 x7 b t) (refSum x0 x1 x2 x3 x4 x5 x6 x7 b)

/-- The context vector at batch row `b`, feature `h`: the attention-weighted sum over the time axis of the projected
    encoder states, from zero. -/
def refCtx (b : Fin 32) (h : Fin 1024) : EReal :=
  0 + ∑ t : Fin 2048, refAttn x0 x1 x2 x3 x4 x5 x6 x7 b t * Cert.Spec.encP x0 x2 x3 b t h

/-! ## The projections and the score -/

/-- The reference's projected encoder states (its fourth operation) are the specification's, index by index: the
    contraction over the encoder feature axis plus the bias broadcast along batch and time. -/
theorem encP_eq (b : Fin 32) (t : Fin 2048) (h : Fin 1024) :
    val_main_v3 (F := Ideal) x0 x2 x3 (ix3 b t h) = Cert.Spec.encP x0 x2 x3 b t h := by
  have el : ∀ k : Fin 1024, lidx_main_v0 (ix3 b t h) k = ix3 b t k := fun k =>
    funext fun a => Fin.ext (by match a with | ⟨0, _⟩ => rfl | ⟨1, _⟩ => rfl | ⟨2, _⟩ => rfl)
  have er : ∀ k : Fin 1024, ridx_main_v0 (ix3 b t h) k = ix2 k h := fun k =>
    funext fun a => Fin.ext (by match a with | ⟨0, _⟩ => rfl | ⟨1, _⟩ => rfl)
  have eb : idx_main_v1 (idx_main_v2 (ix3 b t h)) = ix1 h :=
    funext fun a => Fin.ext (by match a with | ⟨0, _⟩ => rfl)
  rw [val_main_v3_apply, val_main_v0_apply, val_main_v2_apply, val_main_v1_apply, eb, Ideal.addf_def]
  unfold Cert.Spec.encP
  refine congrArg (· + x3 (ix1 h)) (Finset.sum_congr rfl fun k _ => ?_)
  rw [el, er]

/-- The reference's projected decoder state (its eighth operation) is the specification's. -/
theorem decP_eq (b : Fin 32) (h : Fin 1024) :
    val_main_v7 (F := Ideal) x1 x4 x5 (ix2 b h) = Cert.Spec.decP x1 x4 x5 b h := by
  have el : ∀ k : Fin 1024, lidx_main_v4 (ix2 b h) k = ix2 b k := fun k =>
    funext fun a => Fin.ext (by match a with | ⟨0, _⟩ => rfl | ⟨1, _⟩ => rfl)
  have er : ∀ k : Fin 1024, ridx_main_v4 (ix2 b h) k = ix2 k h := fun k =>
    funext fun a => Fin.ext (by match a with | ⟨0, _⟩ => rfl | ⟨1, _⟩ => rfl)
  have eb : idx_main_v5 (idx_main_v6 (ix2 b h)) = ix1 h :=
    funext fun a => Fin.ext (by match a with | ⟨0, _⟩ => rfl)
  rw [val_main_v7_apply, val_main_v4_apply, val_main_v6_apply, val_main_v5_apply, eb, Ideal.addf_def]
  unfold Cert.Spec.decP
  refine congrArg (· + x5 (ix1 h)) (Finset.sum_congr rfl fun k _ => ?_)
  rw [el, er]

/-- The reference's score (its sixteenth operation) is the specification's: the decoder projection is broadcast along
    the time axis and added ON THE LEFT of the encoder projection, the hyperbolic tangent is contracted with the one
    column of the combining matrix, and the scalar bias is added. -/
theorem score_eq (b : Fin 32) (t : Fin 2048) :
    val_main_v15 (F := Ideal) x0 x1 x2 x3 x4 x5 x6 x7 (ix3 b t (0 : Fin 1)) = Cert.Spec.score x0 x1 x2 x3 x4 x5 x6 x7 b t := by
  have el : ∀ k : Fin 1024, lidx_main_v12 (ix3 b t (0 : Fin 1)) k = ix3 b t k := fun k =>
    funext fun a => Fin.ext (by match a with | ⟨0, _⟩ => rfl | ⟨1, _⟩ => rfl | ⟨2, _⟩ => rfl)
  have er : ∀ k : Fin 1024, ridx_main_v12 (ix3 b t (0 : Fin 1)) k = ix2 k (0 : Fin 1) := fun k =>
    funext fun a => Fin.ext (by match a with | ⟨0, _⟩ => rfl | ⟨1, _⟩ => rfl)
  have ed : ∀ k : Fin 1024, idx_main_v8 (idx_main_v9 (ix3 b t k)) = ix2 b k := fun k =>
    funext fun a => Fin.ext (by match a with | ⟨0, _⟩ => rfl | ⟨1, _⟩ => rfl)
  have ec : idx_main_v13 (idx_main_v14 (ix3 b t (0 : Fin 1))) = ix1 (0 : Fin 1) :=
    funext fun a => Fin.ext (by match a with | ⟨0, _⟩ => rfl)
  rw [val_main_v15_apply, val_main_v12_apply, val_main_v14_apply, val_main_v13_apply, ec, Ideal.addf_def]
  unfold Cert.Spec.score
  refine congrArg (· + x7 (ix1 (0 : Fin 1))) (Finset.sum_congr rfl fun k _ => ?_)
  rw [el, er, val_main_v11_apply, val_main_v10_apply, val_main_v9_apply, val_main_v8_apply, ed, decP_eq, encP_eq,
    Ideal.hostUnary_tanh_def, Ideal.addf_def]

/-! ## The maximum over the time axis -/

/-- The word 0xFF800000 is -inf. -/
theorem ofBits_negInf : Ideal.ofBits .f32 0xFF800000#32 = (⊥ : EReal) := by simp [Ideal.ofBits, Ideal.ieee]

/-- Dropping the time axis of [32, 2048, 1] leaves [32, 1]. -/
theorem reduces_time : S32x2048x1.Reduces [1] S32x1 := by decide

/-- The index (b, 0) of [32, 1] with time `k` put back is (b, k, 0). -/
theorem lift_time (b : Fin 32) (k : Fin (S32x2048x1.size 1)) :
    reduces_time.lift (ix2 b (0 : Fin 1)) k = ix3 b (⟨k.val, k.isLt⟩ : Fin 2048) (0 : Fin 1) := by
  funext c; apply Fin.ext
  fin_cases c <;> rfl

/-- A maximum-reduce over the time axis with initial value -inf, at row `b`: the fold of `max` from -inf over the times. -/
theorem reduceMax_apply (y : FVec Ideal S32x2048x1 .f32) (b : Fin 32) :
    Host.reduce (FloatOps.maximumf (F := Ideal) (φ := .f32)) y (val_main_cst (F := Ideal)) reducesTo_S32x2048x1_S32x1_d1 h_S_
        (ix2 b (0 : Fin 1))
      = (Finset.univ : Finset (Fin 2048)).fold max (⊥ : EReal) fun t => y (ix3 b t (0 : Fin 1)) := by
  rw [Host.reduce_eq_fold_single (FloatOps.maximumf (F := Ideal) (φ := .f32)) y _ reducesTo_S32x2048x1_S32x1_d1 reduces_time h_S_,
    val_main_cst_apply, Ideal.ofBits_def, ofBits_negInf]
  have hf : (y ∘ reduces_time.lift (ix2 b (0 : Fin 1))) = fun t : Fin 2048 => y (ix3 b t (0 : Fin 1)) :=
    funext fun k => congrArg y (lift_time b k)
  exact congrArg (fun f => Finset.fold max (⊥ : EReal) f (Finset.univ : Finset (Fin 2048))) hf

/-- The reference's row maximum (its operation %18: the maximum of a splat of -inf and the max-reduce of the score). -/
theorem max_apply (b : Fin 32) :
    val_main_v18 (F := Ideal) x0 x1 x2 x3 x4 x5 x6 x7 (ix2 b (0 : Fin 1)) = refMax x0 x1 x2 x3 x4 x5 x6 x7 b := by
  rw [val_main_v18_apply, val_main_v17_apply, val_main_cst_0_apply, Ideal.ofBits_def, ofBits_negInf, Ideal.maximumf_def]
  unfold val_main_v16
  rw [reduceMax_apply]
  unfold refMax
  exact congrArg (fun f => max (⊥ : EReal) (Finset.fold max (⊥ : EReal) f (Finset.univ : Finset (Fin 2048))))
    (funext fun t => score_eq x0 x1 x2 x3 x4 x5 x6 x7 b t)

/-! ## The exponentials, their sum, the weights and the context -/

/-- The reference's exponentials (its operation %22). -/
theorem exp_apply (b : Fin 32) (t : Fin 2048) :
    val_main_v22 (F := Ideal) x0 x1 x2 x3 x4 x5 x6 x7 (ix3 b t (0 : Fin 1)) = refExp x0 x1 x2 x3 x4 x5 x6 x7 b t := by
  have e : idx_main_v19 (idx_main_v20 (ix3 b t (0 : Fin 1))) = ix2 b (0 : Fin 1) :=
    funext fun a => Fin.ext (by match a with | ⟨0, _⟩ => rfl | ⟨1, _⟩ => rfl)
  rw [val_main_v22_apply, val_main_v21_apply, val_main_v20_apply, val_main_v19_apply, e, max_apply, score_eq,
    Ideal.hostUnary_exp_def, Ideal.subf_def]
  rfl

/-- The reference's softmax denominator (its operation %23). -/
theorem sum_apply (b : Fin 32) :
    val_main_v23 (F := Ideal) x0 x1 x2 x3 x4 x5 x6 x7 (ix2 b (0 : Fin 1)) = refSum x0 x1 x2 x3 x4 x5 x6 x7 b := by
  rw [val_main_v23_apply, val_main_cst_1_apply, Ideal.ofBits_def, Ideal.ofBits_zero_f32]
  unfold refSum
  refine congrArg (0 + ·) (Finset.sum_congr rfl fun k _ => ?_)
  have e : idx_main_v23 (ix2 b (0 : Fin 1)) k = ix3 b k (0 : Fin 1) :=
    funext fun a => Fin.ext (by match a with | ⟨0, _⟩ => rfl | ⟨1, _⟩ => rfl | ⟨2, _⟩ => rfl)
  rw [e, exp_apply]

/-- The reference's attention weights (its operation %26, the second result) at (b, t, 0). -/
theorem attn_apply (b : Fin 32) (t : Fin 2048) :
    val_main_v26 (F := Ideal) x0 x1 x2 x3 x4 x5 x6 x7 (ix3 b t (0 : Fin 1)) = refAttn x0 x1 x2 x3 x4 x5 x6 x7 b t := by
  have e : idx_main_v24 (idx_main_v25 (ix3 b t (0 : Fin 1))) = ix2 b (0 : Fin 1) :=
    funext fun a => Fin.ext (by match a with | ⟨0, _⟩ => rfl | ⟨1, _⟩ => rfl)
  rw [val_main_v26_apply, val_main_v25_apply, val_main_v24_apply, e, sum_apply, exp_apply, Ideal.hostDivf_def]
  rfl

/-- The reference's context vector (its operation %29, the first result) at (b, h). -/
theorem ctx_apply (b : Fin 32) (h : Fin 1024) :
    val_main_v29 (F := Ideal) x0 x1 x2 x3 x4 x5 x6 x7 (ix2 b h) = refCtx x0 x1 x2 x3 x4 x5 x6 x7 b h := by
  rw [val_main_v29_apply, val_main_cst_2_apply, Ideal.ofBits_def, Ideal.ofBits_zero_f32]
  unfold refCtx
  refine congrArg (0 + ·) (Finset.sum_congr rfl fun k _ => ?_)
  have e1 : idx_main_v29 (ix2 b h) k = ix3 b k h :=
    funext fun a => Fin.ext (by match a with | ⟨0, _⟩ => rfl | ⟨1, _⟩ => rfl | ⟨2, _⟩ => rfl)
  have e2 : idx_main_v27 (ix3 b k h) = ix3 b k (0 : Fin 1) :=
    funext fun a => Fin.ext (by match a with | ⟨0, _⟩ => rfl | ⟨1, _⟩ => rfl | ⟨2, _⟩ => rfl)
  rw [e1, val_main_v28_apply, val_main_v27_apply, e2, attn_apply, encP_eq, Ideal.mulf_def]

/-! ## The two results as whole arrays -/

/-- The second result: the attention weights, with the trailing unit axis. -/
theorem attn_eq :
    val_main_v26 (F := Ideal) x0 x1 x2 x3 x4 x5 x6 x7 = fun i => refAttn x0 x1 x2 x3 x4 x5 x6 x7 (i 0) (i 1) := by
  funext i
  obtain ⟨b, t, u, rfl⟩ : ∃ (b : Fin 32) (t : Fin 2048) (u : Fin 1), i = ix3 b t u := ⟨i 0, i 1, i 2, eq_ix3 i⟩
  obtain rfl : u = 0 := Subsingleton.elim _ _
  exact attn_apply x0 x1 x2 x3 x4 x5 x6 x7 b t

/-- The first result: the context vectors. -/
theorem ctx_eq :
    val_main_v29 (F := Ideal) x0 x1 x2 x3 x4 x5 x6 x7 = fun i => refCtx x0 x1 x2 x3 x4 x5 x6 x7 (i 0) (i 1) := by
  funext i
  obtain ⟨b, h, rfl⟩ : ∃ (b : Fin 32) (h : Fin 1024), i = ix2 b h := ⟨i 0, i 1, eq_ix2 i⟩
  exact ctx_apply x0 x1 x2 x3 x4 x5 x6 x7 b h

end Cert.RefValue

end
-- ==== Proof.RealSide.lean ====
/-
  The real side: on finite inputs everything the two programs compute is a real number, and the reference's softmax and
  weighted sum are the textbook ones.

  First, if every entry of the eight argument arrays is a real number, then so are the projected encoder states, the
  projected decoder states and the additive attention score: a finite sum of products of reals is a real, a sum of two
  reals is a real, and the hyperbolic tangent of a real is a real.

  Second, with the scores s b t and the projected encoder states e b t h real, the reference's row maximum is a real
  M b (a fold of max from -inf over the 2048 times, a nonempty set, of real entries), its exponentials are
  exp (s b t - M b), its denominator is the positive real Z b = sum over u of exp (s b u - M b), its attention weights are
  exp (s b t - M b) / Z b, and its context vector is the sum over t of (exp (s b t - M b) / Z b) * e b t h; the zero each
  sum starts from adds nothing.
-/
import proofs.«173364_j57054345560395_2_alg».proof.Proof.RefValue
import proofs.«173364_j57054345560395_2_alg».proof.Proof.Spec
import proofs.«173364_j57054345560395_2_alg».proof.Proof.Softmax

noncomputable section

open scoped BigOperators

namespace Cert.RealSide

open Idealize.ShloMosaic Idealize.ShloMosaic.ValueIdx Cert.Softmax

/-! ## Finite arrays make the projections and the score real -/

/-- A finite sum of products of extended reals that are all real numbers is a real number: the sum of the products. -/
theorem sum_mul_real {ι : Type*} (s : Finset ι) (f g : ι → EReal) (hf : ∀ i, ∃ r : ℝ, f i = (r : EReal))
    (hg : ∀ i, ∃ r : ℝ, g i = (r : EReal)) : ∃ r : ℝ, ∑ i ∈ s, f i * g i = (r : EReal) := by
  choose F hF using hf
  choose G hG using hg
  refine ⟨∑ i ∈ s, F i * G i, ?_⟩
  rw [coe_sum]
  refine Finset.sum_congr rfl fun i _ => ?_
  rw [hF, hG, EReal.coe_mul]

section Projections

variable (henc : Cert.Spec.IEnc → EReal) (hdec : Cert.Spec.IDec → EReal) (We : Cert.Spec.IMat → EReal)
  (be : Cert.Spec.IVec → EReal) (Wd : Cert.Spec.IMat → EReal) (bd : Cert.Spec.IVec → EReal)
  (Wc : Cert.Spec.ICol → EReal) (bc : Cert.Spec.IOne → EReal)

/-- The projected encoder state of real arrays is real. -/
theorem encP_real (f0 : ∀ i, ∃ r : ℝ, henc i = (r : EReal)) (f2 : ∀ i, ∃ r : ℝ, We i = (r : EReal))
    (f3 : ∀ i, ∃ r : ℝ, be i = (r : EReal)) (b : Fin 32) (t : Fin 2048) (h : Fin 1024) :
    ∃ r : ℝ, Cert.Spec.encP henc We be b t h = (r : EReal) := by
  obtain ⟨s, hs⟩ := sum_mul_real Finset.univ (fun d : Fin 1024 => henc (ix3 b t d)) (fun d => We (ix2 d h))
    (fun d => f0 _) (fun d => f2 _)
  have hs' : ∑ d : Fin 1024, henc (ix3 b t d) * We (ix2 d h) = (s : EReal) := hs
  obtain ⟨r, hr⟩ := f3 (ix1 h)
  exact ⟨s + r, by unfold Cert.Spec.encP; rw [hs', hr, EReal.coe_add]⟩

/-- The projected decoder state of real arrays is real. -/
theorem decP_real (f1 : ∀ i, ∃ r : ℝ, hdec i = (r : EReal)) (f4 : ∀ i, ∃ r : ℝ, Wd i = (r : EReal))
    (f5 : ∀ i, ∃ r : ℝ, bd i = (r : EReal)) (b : Fin 32) (h : Fin 1024) :
    ∃ r : ℝ, Cert.Spec.decP hdec Wd bd b h = (r : EReal) := by
  obtain ⟨s, hs⟩ := sum_mul_real Finset.univ (fun d : Fin 1024 => hdec (ix2 b d)) (fun d => Wd (ix2 d h))
    (fun d => f1 _) (fun d => f4 _)
  have hs' : ∑ d : Fin 1024, hdec (ix2 b d) * Wd (ix2 d h) = (s : EReal) := hs
  obtain ⟨r, hr⟩ := f5 (ix1 h)
  exact ⟨s + r, by unfold Cert.Spec.decP; rw [hs', hr, EReal.coe_add]⟩

/-- The additive attention score of real arrays is real: the hyperbolic tangent of a real is a real. -/
theorem score_real (f0 : ∀ i, ∃ r : ℝ, henc i = (r : EReal)) (f1 : ∀ i, ∃ r : ℝ, hdec i = (r : EReal))
    (f2 : ∀ i, ∃ r : ℝ, We i = (r : EReal)) (f3 : ∀ i, ∃ r : ℝ, be i = (r : EReal))
    (f4 : ∀ i, ∃ r : ℝ, Wd i = (r : EReal)) (f5 : ∀ i, ∃ r : ℝ, bd i = (r : EReal))
    (f6 : ∀ i, ∃ r : ℝ, Wc i = (r : EReal)) (f7 : ∀ i, ∃ r : ℝ, bc i = (r : EReal)) (b : Fin 32) (t : Fin 2048) :
    ∃ r : ℝ, Cert.Spec.score henc hdec We be Wd bd Wc bc b t = (r : EReal) := by
  have ht : ∀ h : Fin 1024, ∃ r : ℝ,
      Ideal.tanh (Cert.Spec.decP hdec Wd bd b h + Cert.Spec.encP henc We be b t h) = (r : EReal) := fun h => by
    obtain ⟨d, hd⟩ := decP_real hdec Wd bd f1 f4 f5 b h
    obtain ⟨e, he⟩ := encP_real henc We be f0 f2 f3 b t h
    exact ⟨Real.tanh (d + e), by rw [hd, he, ← EReal.coe_add, Ideal.tanh_coe]⟩
  obtain ⟨s, hs⟩ := sum_mul_real Finset.univ
    (fun h : Fin 1024 => Ideal.tanh (Cert.Spec.decP hdec Wd bd b h + Cert.Spec.encP henc We be b t h))
    (fun h => Wc (ix2 h 0)) ht (fun h => f6 _)
  have hs' : ∑ h : Fin 1024, Ideal.tanh (Cert.Spec.decP hdec Wd bd b h + Cert.Spec.encP henc We be b t h) * Wc (ix2 h 0)
      = (s : EReal) := hs
  obtain ⟨r, hr⟩ := f7 (ix1 0)
  exact ⟨s + r, by unfold Cert.Spec.score; rw [hs', hr, EReal.coe_add]⟩

end Projections

/-! ## The reference on real scores is the textbook softmax -/

section Reference

open Cert.ReferenceIdeal

variable (x0 : (⟨S32x2048x1024, .f32⟩ : BufTy).Contents (Elt Ideal)) (x1 : (⟨S32x1024, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1, .f32⟩ : BufTy).Contents (Elt Ideal)) (x7 : (⟨S1, .f32⟩ : BufTy).Contents (Elt Ideal))
  (sR : Fin 32 → Fin 2048 → ℝ) (eR : Fin 32 → Fin 2048 → Fin 1024 → ℝ)

/-- On real scores the reference's row maximum is a real: the fold of max from -inf over the 2048 times is a real, and
    the larger of -inf and it is it. -/
theorem refMax_real (hs : ∀ b t, Cert.Spec.score x0 x1 x2 x3 x4 x5 x6 x7 b t = ((sR b t : ℝ) : EReal)) (b : Fin 32) :
    ∃ r : ℝ, Cert.RefValue.refMax x0 x1 x2 x3 x4 x5 x6 x7 b = (r : EReal) := by
  obtain ⟨r, hr⟩ := fold_max_coe_of_nonempty (Finset.univ : Finset (Fin 2048)) Finset.univ_nonempty (sR b)
  refine ⟨r, ?_⟩
  unfold Cert.RefValue.refMax
  rw [show (fun t => Cert.Spec.score x0 x1 x2 x3 x4 x5 x6 x7 b t) = fun t => ((sR b t : ℝ) : EReal) from funext (hs b), hr]
  exact max_eq_right bot_le

/-- With the scores and the projected encoder states real, the reference's attention weights are the softmax of the
    scores over the time axis, shifted by the row maximum M b, and its context vector is the weighted sum of the
    projected encoder states. -/
theorem ref_real (hs : ∀ b t, Cert.Spec.score x0 x1 x2 x3 x4 x5 x6 x7 b t = ((sR b t : ℝ) : EReal))
    (he : ∀ b t h, Cert.Spec.encP x0 x2 x3 b t h = ((eR b t h : ℝ) : EReal)) :
    ∃ M : Fin 32 → ℝ,
      (∀ (b : Fin 32) (t : Fin 2048), Cert.RefValue.refAttn x0 x1 x2 x3 x4 x5 x6 x7 b t
          = ((Real.exp (sR b t - M b) / ∑ u : Fin 2048, Real.exp (sR b u - M b) : ℝ) : EReal))
      ∧ (∀ (b : Fin 32) (h : Fin 1024), Cert.RefValue.refCtx x0 x1 x2 x3 x4 x5 x6 x7 b h
          = ((∑ t : Fin 2048, (Real.exp (sR b t - M b) / ∑ u : Fin 2048, Real.exp (sR b u - M b)) * eR b t h : ℝ) : EReal)) := by
  choose M hM using refMax_real x0 x1 x2 x3 x4 x5 x6 x7 sR hs
  have hexp : ∀ b t, Cert.RefValue.refExp x0 x1 x2 x3 x4 x5 x6 x7 b t = ((Real.exp (sR b t - M b) : ℝ) : EReal) := fun b t => by
    unfold Cert.RefValue.refExp
    rw [hs, hM, exp_sub_coe]
  have hsum : ∀ b, Cert.RefValue.refSum x0 x1 x2 x3 x4 x5 x6 x7 b = ((∑ u : Fin 2048, Real.exp (sR b u - M b) : ℝ) : EReal) := fun b => by
    unfold Cert.RefValue.refSum
    rw [zero_add, coe_sum]
    exact Finset.sum_congr rfl fun t _ => hexp b t
  have hZ : ∀ b, (∑ u : Fin 2048, Real.exp (sR b u - M b)) ≠ 0 := fun b =>
    (sum_exp_pos (Finset.univ : Finset (Fin 2048)) Finset.univ_nonempty (sR b) (M b)).ne'
  have hattn : ∀ b t, Cert.RefValue.refAttn x0 x1 x2 x3 x4 x5 x6 x7 b t
      = ((Real.exp (sR b t - M b) / ∑ u : Fin 2048, Real.exp (sR b u - M b) : ℝ) : EReal) := fun b t => by
    unfold Cert.RefValue.refAttn
    rw [hexp, hsum, div_coe_coe _ (hZ b)]
  refine ⟨M, hattn, fun b h => ?_⟩
  unfold Cert.RefValue.refCtx
  rw [zero_add, coe_sum]
  refine Finset.sum_congr rfl fun t _ => ?_
  rw [hattn, he, EReal.coe_mul]

end Reference

end Cert.RealSide

end
-- ==== Proof.Finite.lean ====
/-
  From the precondition to finiteness. The precondition says, of each of the eight argument arrays x, that
  "all (|x| < +inf)" holds: a conjunction, by "and" on one-bit words, of eight reductions by "and" over every axis of the
  one-bit array whose entry at an index i is the comparison |x i| < +inf. A conjunction of one-bit words that is 1 has both
  parts 1; a reduction by "and" over every axis that is 1 met a 1 at every index; and an extended real whose absolute
  value max x (-x) lies strictly below +inf is neither +inf nor -inf, hence a real number. So under the precondition
  every entry of every argument array is a real number.
-/
import proofs.«173364_j57054345560395_2_alg».proof.Defs
import Idealize.ShloMosaic.Lib.ReduceAll

noncomputable section

namespace Cert.Finite

open Idealize.ShloMosaic Idealize.SL.Sem

/-- The rank-0 shape (a scalar's) has exactly one index. -/
instance : Subsingleton Cert.Pre_finite_inputs.S_.Idx := ⟨fun a b => funext fun d => d.elim0⟩

/-- An extended real x with |x| = max x (-x) strictly below the f32 pattern of +inf is a real number:
    at x = +inf and at x = -inf the absolute value is +inf, which is not below itself. -/
theorem real_of_abs_lt (x : EReal)
    (h : Ideal.cmp .olt (max x (-x)) (Ideal.ofBits .f32 0x7F800000#32) = 1#1) : ∃ r : ℝ, x = (r : EReal) := by
  have hT : Ideal.ofBits .f32 0x7F800000#32 = (⊤ : EReal) := by simp [Ideal.ofBits, Ideal.ieee]
  rw [hT] at h
  induction x using EReal.rec with
  | bot => simp [Ideal.cmp] at h
  | coe r => exact ⟨r, rfl⟩
  | top => simp [Ideal.cmp] at h

/-- ONE ARRAY, of any shape s: if the reduction by "and" over all axes of the array of comparisons |x i| < +inf
    (the scalar +inf broadcast to s) is 1, then every entry of x is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1) (i : s.Idx) :
    ∃ r : ℝ, x i = (r : EReal) :=
  real_of_abs_lt (x i) (Host.reduce_andi_all _ _ hr hu j e i)

/-- A conjunction of two one-bit scalars that is 1 at the index has both parts 1 there. -/
theorem both_of_andi {s : Shape} (a b : IVec s 1) (j : s.Idx) (h : andi a b j = 1#1) : a j = 1#1 ∧ b j = 1#1 :=
  IntOp.andi_eq_one.1 (show IntOp.andi (a j) (b j) = 1#1 from h)

variable [Cert.Pre_finite_inputs.Facts]

/-- THE PRECONDITION DECODED: on every device, every entry of each of the eight argument arrays is a real number. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal)) := by
  -- the predicate's one result word, at the scalar's one index
  have e := congrFun (hpre c) (fun a => a.elim0)
  dsimp only [Cert.Pre_finite_inputs.fn, Cert.Pre_finite_inputs.fn_part1, Cert.Pre_finite_inputs.fn_part2] at e
  -- the conjunction is nested to the left: peel the last array's part off, seven times
  obtain ⟨e, h7⟩ := both_of_andi _ _ _ e
  obtain ⟨e, h6⟩ := both_of_andi _ _ _ e
  obtain ⟨e, h5⟩ := both_of_andi _ _ _ e
  obtain ⟨e, h4⟩ := both_of_andi _ _ _ e
  obtain ⟨e, h3⟩ := both_of_andi _ _ _ e
  obtain ⟨e, h2⟩ := both_of_andi _ _ _ e
  obtain ⟨h0, h1⟩ := both_of_andi _ _ _ e
  exact ⟨real_of_all _ _ _ _ _ h0, real_of_all _ _ _ _ _ h1, real_of_all _ _ _ _ _ h2, real_of_all _ _ _ _ _ h3,
    real_of_all _ _ _ _ _ h4, real_of_all _ _ _ _ _ h5, real_of_all _ _ _ _ _ h6, real_of_all _ _ _ _ _ h7⟩

end Cert.Finite

end
-- ==== Proof.Claims.lean ====
/-
  The five claims.

  The three frames are the generated ones (the reference's is its generated run with the results dropped), and the
  idealization rewrote nothing. The equivalence over the extended reals:

  Under the precondition every argument entry is a real number, so the projected encoder states and the scores are real
  numbers `eR b t h`, `sR b t`. The reference's maximum over time is then a real `M b`, and its two results are

      attn b t  = exp (sR b t - M b) / Σ_u exp (sR b u - M b),
      ctx  b h  = Σ_t attn b t · eR b t h.

  The kernel makes one pass over the time blocks keeping a running maximum, denominator and numerator; whatever the
  running maximum ends at, its context output is that same weighted mean and its log-sum-exp output is
  `M b + log Σ_u exp (sR b u - M b)` (softmax does not depend on the shift), so that the exponential of the score less
  the log-sum-exp, taken after the kernel, is `attn b t`.
-/
import proofs.«173364_j57054345560395_2_alg».proof.Defs
import proofs.«173364_j57054345560395_2_alg».proof.Proof.Gen.Kernel.Frame
import proofs.«173364_j57054345560395_2_alg».proof.Proof.Gen.KernelIdeal.Frame
import proofs.«173364_j57054345560395_2_alg».proof.Proof.Gen.ReferenceIdeal.Run
import proofs.«173364_j57054345560395_2_alg».proof.Proof.Gen.ReferenceIdeal.Read
import proofs.«173364_j57054345560395_2_alg».proof.Proof.Gen.Pre_finite_inputs
import proofs.«173364_j57054345560395_2_alg».proof.Proof.Invariant
import proofs.«173364_j57054345560395_2_alg».proof.Proof.Final
import proofs.«173364_j57054345560395_2_alg».proof.Proof.RealSide
import proofs.«173364_j57054345560395_2_alg».proof.Proof.Finite
import proofs.«173364_j57054345560395_2_alg».proof.Proof.RefValue

set_option maxRecDepth 16384

noncomputable section

open scoped BigOperators
open Idealize.ShloMosaic Idealize.ShloMosaic.TcCoe Idealize.SL.Sem Idealize.ShloMosaic.ValueIdx

namespace Cert.Proof.Claims

/-- The context result over real data: the softmax-weighted mean of the projected encoder states. -/
def ctxR (sR : Fin 32 → Fin 2048 → ℝ) (eR : Fin 32 → Fin 2048 → Fin 1024 → ℝ) (M : Fin 32 → ℝ) :
    Cert.KernelIdeal.S32x1024.Idx → EReal := fun i =>
  ((∑ u : Fin 2048, (Real.exp (sR (i 0) u - M (i 0)) / ∑ v : Fin 2048, Real.exp (sR (i 0) v - M (i 0))) * eR (i 0) u (i 1) : ℝ) : EReal)

/-- The score array over real data. -/
def scoreR (sR : Fin 32 → Fin 2048 → ℝ) : Cert.KernelIdeal.S32x2048.Idx → EReal := fun i => ((sR (i 0) (i 1) : ℝ) : EReal)

/-- The log-sum-exp array over real data, relative to the shift `M`. -/
def lseR (sR : Fin 32 → Fin 2048 → ℝ) (M : Fin 32 → ℝ) : Cert.KernelIdeal.S32x1.Idx → EReal := fun i =>
  ((M (i 0) + Real.log (∑ u : Fin 2048, Real.exp (sR (i 0) u - M (i 0))) : ℝ) : EReal)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The exponential of a real score less the log-sum-exp is the softmax weight. -/
theorem tail_weight (s : Fin 2048 → ℝ) (M x : ℝ) :
    Ideal.exp ((x : EReal) - ((M + Real.log (∑ u : Fin 2048, Real.exp (s u - M)) : ℝ) : EReal))
      = ((Real.exp (x - M) / ∑ u : Fin 2048, Real.exp (s u - M) : ℝ) : EReal) := by
  have hne : (Finset.univ : Finset (Fin 2048)).Nonempty := ⟨⟨0, by norm_num⟩, Finset.mem_univ _⟩
  rw [Cert.Softmax.exp_sub_coe, Cert.Softmax.lse_shift _ hne s M M x]

theorem algebraic : Cert.algebraic_KernelIdeal_ReferenceIdeal := by
  intro m ρ m' ρ' hpre hagree
  -- the scores and the projected encoder states are real numbers
  have hreal : ∀ c : Dev Cert.KernelIdeal.nD, ∃ (sR : Fin 32 → Fin 2048 → ℝ) (eR : Fin 32 → Fin 2048 → Fin 1024 → ℝ),
      (∀ (b : Fin 32) (t : Fin 2048), Cert.Spec.score (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) b t = ((sR b t : ℝ) : EReal))
      ∧ (∀ (b : Fin 32) (t : Fin 2048) (h : Fin 1024), Cert.Spec.encP (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) b t h = ((eR b t h : ℝ) : EReal)) := fun c => by
    obtain ⟨f0, f1, f2, f3, f4, f5, f6, f7⟩ := Cert.Finite.real_of_pre m hpre c
    choose sR hsR using fun (b : Fin 32) (t : Fin 2048) =>
      Cert.RealSide.score_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) f0 f1 f2 f3 f4 f5 f6 f7 b t
    choose eR heR using fun (b : Fin 32) (t : Fin 2048) (h : Fin 1024) =>
      Cert.RealSide.encP_real (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) f0 f2 f3 b t h
    exact ⟨sR, eR, hsR, heR⟩
  choose sR eR hs he using hreal
  -- the reference's maximum is a real shift, and its results are the textbook softmax relative to it
  have href := fun c : Dev Cert.KernelIdeal.nD => Cert.RealSide.ref_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (sR c) (eR c) (hs c) (he c)
  choose M hAttn hCtx using href
  -- the kernel's three output arrays
  have h7 : ∀ c, (Cert.KernelIdeal.Gen.dats m 0 c).arrAt 7 Cert.KernelIdeal.cfg0.N = scoreR (sR c) := fun c =>
    Cert.Final.final7 m c (scoreR (sR c)) (fun t p q => Cert.Invariant.score_point m c (sR c) (eR c) (hs c) (he c) t p q)
  have h8 : ∀ c, (Cert.KernelIdeal.Gen.dats m 0 c).arrAt 8 Cert.KernelIdeal.cfg0.N = lseR (sR c) (M c) := fun c =>
    Cert.Final.final8 m c (lseR (sR c) (M c)) (fun t h1 p => Cert.Invariant.lse_point m c (sR c) (eR c) (hs c) (he c) (M c) t h1 p)
  have h6 : ∀ c, (Cert.KernelIdeal.Gen.dats m 0 c).arrAt 6 Cert.KernelIdeal.cfg0.N = ctxR (sR c) (eR c) (M c) := fun c =>
    Cert.Final.final6 m c (ctxR (sR c) (eR c) (M c)) (fun t h1 p h => Cert.Invariant.ctx_point m c (sR c) (eR c) (hs c) (he c) (M c) t h1 p h)
  refine ⟨fun c => ctxR (sR c) (eR c) (M c),
    fun c => (fun i => Ideal.exp (scoreR (sR c) (ix2 (i 0) (i 1)) - lseR (sR c) (M c) (ix2 (i 0) 0))),
    Cert.Final.run_read m ρ (fun c => ctxR (sR c) (eR c) (M c)) (fun c => scoreR (sR c)) (fun c => lseR (sR c) (M c)) h6 h7 h8, ?_⟩
  -- the reference's run
  refine (θ_run Cert.ReferenceIdeal.defs _ _).mono (fun r h c => ⟨?_, ?_, (h c).2.2⟩)
    (Cert.ReferenceIdeal.Value.run (F := Ideal) m' ρ')
  · rw [(h c).1, Cert.ReferenceIdeal.Read.val_main_v29_eq, (hagree c).1, (hagree c).2.1, (hagree c).2.2.1, (hagree c).2.2.2.1,
      (hagree c).2.2.2.2.1, (hagree c).2.2.2.2.2.1, (hagree c).2.2.2.2.2.2.1, (hagree c).2.2.2.2.2.2.2, Cert.RefValue.ctx_eq]
    funext i
    exact hCtx c (i 0) (i 1)
  · rw [(h c).2.1, Cert.ReferenceIdeal.Read.val_main_v26_eq, (hagree c).1, (hagree c).2.1, (hagree c).2.2.1, (hagree c).2.2.2.1,
      (hagree c).2.2.2.2.1, (hagree c).2.2.2.2.2.1, (hagree c).2.2.2.2.2.2.1, (hagree c).2.2.2.2.2.2.2, Cert.RefValue.attn_eq]
    funext i
    exact (hAttn c (i 0) (i 1)).trans (tail_weight (sR c (i 0)) (M c (i 0)) (sR c (i 0) (i 1))).symm

end Cert.Proof.Claims

end
-- ==== Proof.lean ====
/- The proof of `Cert.Claim`: the three frames, the idealization's ledger (empty) and the equivalence of the idealized
   kernel — a one-pass (running maximum, denominator, numerator) softmax attention over 16 time blocks — with the
   idealized reference — the textbook softmax over the whole time axis — over the extended reals, for finite inputs.
   The facts of the printed programs are the generated instances; the five claims are in Proof/Claims.lean. -/
import proofs.«173364_j57054345560395_2_alg».proof.Defs
import proofs.«173364_j57054345560395_2_alg».proof.Proof.Gen.Kernel
import proofs.«173364_j57054345560395_2_alg».proof.Proof.Gen.Kernel.Skeleton
import proofs.«173364_j57054345560395_2_alg».proof.Proof.Gen.Kernel.Launch
import proofs.«173364_j57054345560395_2_alg».proof.Proof.Gen.Kernel.Points
import proofs.«173364_j57054345560395_2_alg».proof.Proof.Gen.Kernel.Frame
import proofs.«173364_j57054345560395_2_alg».proof.Proof.Gen.KernelIdeal
import proofs.«173364_j57054345560395_2_alg».proof.Proof.Gen.KernelIdeal.Skeleton
import proofs.«173364_j57054345560395_2_alg».proof.Proof.Gen.KernelIdeal.Launch
import proofs.«173364_j57054345560395_2_alg».proof.Proof.Gen.KernelIdeal.Points
import proofs.«173364_j57054345560395_2_alg».proof.Proof.Gen.KernelIdeal.Frame
import proofs.«173364_j57054345560395_2_alg».proof.Proof.Gen.ReferenceIdeal
import proofs.«173364_j57054345560395_2_alg».proof.Proof.Gen.Pre_finite_inputs
import proofs.«173364_j57054345560395_2_alg».proof.Proof.Gen.ReferenceIdeal.Run
import proofs.«173364_j57054345560395_2_alg».proof.Proof.Gen.ReferenceIdeal.Read
import proofs.«173364_j57054345560395_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
